-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S512x512 : Shape := ⟨2, ![512, 512]⟩
abbrev S512 : Shape := ⟨1, ![512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part8 {F : FTy → Type} [FloatOps F] (main_arg18 : FVec F S512 .f32) (main_arg24 : FVec F S512 .f32) (main_v135 : IVec S_ 1) : IVec S_ 1 :=
  let main_cst_54 : FVec F S_ .f32 := constant S_ .f32 0x3727C5AC#32
  let main_v136 : FVec F S512 .f32 := broadcastInDim S512 ![] bcast_S_S512 main_cst_54
  let main_v137 : FVec F S512 .f32 := addf main_arg18 main_v136
  let main_cst_55 : FVec F S_ .f32 := constant S_ .f32 0x00000000#32
  let main_v138 : FVec F S512 .f32 := broadcastInDim S512 ![] bcast_S_S512 main_cst_55
  let main_v139 : IVec S512 1 := cmpf .ogt main_v137 main_v138
  let main_c_56 : IVec S_ 1 := constantI S_ 1 1#1
  let main_v140 : IVec S_ 1 := (fun x v => Host.reduce IntOp.andi x v reducesTo_S512_S_d0 h_S_) main_v139 main_c_56
  let main_v141 : IVec S_ 1 := andi main_v135 main_v140
  let main_cst_57 : FVec F S_ .f32 := constant S_ .f32 0x3727C5AC#32
  let main_v142 : FVec F S512 .f32 := broadcastInDim S512 ![] bcast_S_S512 main_cst_57
  let main_v143 : FVec F S512 .f32 := addf main_arg24 main_v142
  let main_cst_58 : FVec F S_ .f32 := constant S_ .f32 0x00000000#32
  let main_v144 : FVec F S512 .f32 := broadcastInDim S512 ![] bcast_S_S512 main_cst_58
  let main_v145 : IVec S512 1 := cmpf .ogt main_v143 main_v144
  let main_c_59 : IVec S_ 1 := constantI S_ 1 1#1
  let main_v146 : IVec S_ 1 := (fun x v => Host.reduce IntOp.andi x v reducesTo_S512_S_d0 h_S_) main_v145 main_c_59
  let main_v147 : IVec S_ 1 := andi main_v141 main_v146
  main_v147

def fn_part7 {F : FTy → Type} [FloatOps F] (main_arg6 : FVec F S512 .f32) (main_arg12 : FVec F S512 .f32) (main_arg18 : FVec F S512 .f32) (main_arg24 : FVec F S512 .f32) (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  let main_cst_48 : FVec F S_ .f32 := constant S_ .f32 0x3727C5AC#32
  let main_v124 : FVec F S512 .f32 := broadcastInDim S512 ![] bcast_S_S512 main_cst_48
  let main_v125 : FVec F S512 .f32 := addf main_arg6 main_v124
  let main_cst_49 : FVec F S_ .f32 := constant S_ .f32 0x00000000#32
  let main_v126 : FVec F S512 .f32 := broadcastInDim S512 ![] bcast_S_S512 main_cst_49
  let main_v127 : IVec S512 1 := cmpf .ogt main_v125 main_v126
  let main_c_50 : IVec S_ 1 := constantI S_ 1 1#1
  let main_v128 : IVec S_ 1 := (fun x v => Host.reduce IntOp.andi x v reducesTo_S512_S_d0 h_S_) main_v127 main_c_50
  let main_v129 : IVec S_ 1 := andi main_v123 main_v128
  let main_cst_51 : FVec F S_ .f32 := constant S_ .f32 0x3727C5AC#32
  let main_v130 : FVec F S512 .f32 := broadcastInDim S512 ![] bcast_S_S512 main_cst_51
  let main_v131 : FVec F S512 .f32 := addf main_arg12 main_v130
  let main_cst_52 : FVec F S_ .f32 := constant S_ .f32 0x00000000#32
  let main_v132 : FVec F S512 .f32 := broadcastInDim S512 ![] bcast_S_S512 main_cst_52
  let main_v133 : IVec S512 1 := cmpf .ogt main_v131 main_v132
  let main_c_53 : IVec S_ 1 := constantI S_ 1 1#1
  let main_v134 : IVec S_ 1 := (fun x v => Host.reduce IntOp.andi x v reducesTo_S512_S_d0 h_S_) main_v133 main_c_53
  let main_v135 : IVec S_ 1 := andi main_v129 main_v134
  fn_part8 (F := F) main_arg18 main_arg24 main_v135

def fn_part6 {F : FTy → Type} [FloatOps F] (main_arg6 : FVec F S512 .f32) (main_arg12 : FVec F S512 .f32) (main_arg18 : FVec F S512 .f32) (main_arg21 : FVec F S512 .f32) (main_arg22 : FVec F S512 .f32) (main_arg23 : FVec F S512 .f32) (main_arg24 : FVec F S512 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S512 .f32 := Host.absf main_arg21
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S512 .f32 := Host.absf main_arg22
  let main_cst_42 : FVec F S_ .f32 := constant S_ .f32 0x7F800000#32
  let main_v110 : FVec F S512 .f32 := broadcastInDim S512 ![] bcast_S_S512 main_cst_42
  let main_v111 : IVec S512 1 := cmpf .olt main_v109 main_v110
  let main_c_43 : IVec S_ 1 := constantI S_ 1 1#1
  let main_v112 : IVec S_ 1 := (fun x v => Host.reduce IntOp.andi x v reducesTo_S512_S_d0 h_S_) main_v111 main_c_43
  let main_v113 : IVec S_ 1 := andi main_v108 main_v112
  let main_v114 : FVec F S512 .f32 := Host.absf main_arg23
  let main_cst_44 : FVec F S_ .f32 := constant S_ .f32 0x7F800000#32
  let main_v115 : FVec F S512 .f32 := broadcastInDim S512 ![] bcast_S_S512 main_cst_44
  let main_v116 : IVec S512 1 := cmpf .olt main_v114 main_v115
  let main_c_45 : IVec S_ 1 := constantI S_ 1 1#1
  let main_v117 : IVec S_ 1 := (fun x v => Host.reduce IntOp.andi x v reducesTo_S512_S_d0 h_S_) main_v116 main_c_45
  let main_v118 : IVec S_ 1 := andi main_v113 main_v117
  let main_v119 : FVec F S512 .f32 := Host.absf main_arg24
  fn_part7 (F := F) main_arg6 main_arg12 main_arg18 main_arg24 main_v118 main_v119

def fn_part5 {F : FTy → Type} [FloatOps F] (main_arg6 : FVec F S512 .f32) (main_arg12 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512x512 .f32 := Host.absf main_arg19
  let main_cst_36 : FVec F S_ .f32 := constant S_ .f32 0x7F800000#32
  let main_v95 : FVec F S512x512 .f32 := broadcastInDim S512x512 ![] bcast_S_S512x512 main_cst_36
  let main_v96 : IVec S512x512 1 := cmpf .olt main_v94 main_v95
  let main_c_37 : IVec S_ 1 := constantI S_ 1 1#1
  let main_v97 : IVec S_ 1 := (fun x v => Host.reduce IntOp.andi x v reducesTo_S512x512_S_d0_1 h_S_) main_v96 main_c_37
  let main_v98 : IVec S_ 1 := andi main_v93 main_v97
  let main_v99 : FVec F S512 .f32 := Host.absf main_arg20
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg6 main_arg12 main_arg18 main_arg21 main_arg22 main_arg23 main_arg24 main_v98 main_v101 main_c_39

def fn_part4 {F : FTy → Type} [FloatOps F] (main_arg6 : FVec F S512 .f32) (main_arg12 : FVec F S512 .f32) (main_arg14 : FVec F S512 .f32) (main_arg15 : FVec F S512 .f32) (main_arg16 : FVec F S512 .f32) (main_arg17 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg6 main_arg12 main_arg18 main_arg19 main_arg20 main_arg21 main_arg22 main_arg23 main_arg24 main_v83 main_v84 main_cst_32

def fn_part3 {F : FTy → Type} [FloatOps F] (main_arg6 : FVec F S512 .f32) (main_arg11 : FVec F S512 .f32) (main_arg12 : FVec F S512 .f32) (main_arg13 : FVec F S512x512 .f32) (main_arg14 : FVec F S512 .f32) (main_arg15 : FVec F S512 .f32) (main_arg16 : FVec F S512 .f32) (main_arg17 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg6 main_arg12 main_arg14 main_arg15 main_arg16 main_arg17 main_arg18 main_arg19 main_arg20 main_arg21 main_arg22 main_arg23 main_arg24 main_v63 main_v67

def fn_part2 {F : FTy → Type} [FloatOps F] (main_arg6 : FVec F S512 .f32) (main_arg7 : FVec F S512x512 .f32) (main_arg8 : FVec F S512 .f32) (main_arg9 : FVec F S512 .f32) (main_arg10 : FVec F S512 .f32) (main_arg11 : FVec F S512 .f32) (main_arg12 : FVec F S512 .f32) (main_arg13 : FVec F S512x512 .f32) (main_arg14 : FVec F S512 .f32) (main_arg15 : FVec F S512 .f32) (main_arg16 : FVec F S512 .f32) (main_arg17 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg6 main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S512 .f32) (main_arg5 : FVec F S512 .f32) (main_arg6 : FVec F S512 .f32) (main_arg7 : FVec F S512x512 .f32) (main_arg8 : FVec F S512 .f32) (main_arg9 : FVec F S512 .f32) (main_arg10 : FVec F S512 .f32) (main_arg11 : FVec F S512 .f32) (main_arg12 : FVec F S512 .f32) (main_arg13 : FVec F S512x512 .f32) (main_arg14 : FVec F S512 .f32) (main_arg15 : FVec F S512 .f32) (main_arg16 : FVec F S512 .f32) (main_arg17 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg6 main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S8x1024x512 .f32) (main_arg1 : FVec F S512x512 .f32) (main_arg2 : FVec F S512 .f32) (main_arg3 : FVec F S512 .f32) (main_arg4 : FVec F S512 .f32) (main_arg5 : FVec F S512 .f32) (main_arg6 : FVec F S512 .f32) (main_arg7 : FVec F S512x512 .f32) (main_arg8 : FVec F S512 .f32) (main_arg9 : FVec F S512 .f32) (main_arg10 : FVec F S512 .f32) (main_arg11 : FVec F S512 .f32) (main_arg12 : FVec F S512 .f32) (main_arg13 : FVec F S512x512 .f32) (main_arg14 : FVec F S512 .f32) (main_arg15 : FVec F S512 .f32) (main_arg16 : FVec F S512 .f32) (main_arg17 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S8x1024x512 : Shape := ⟨3, ![8, 1024, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x1024x512 : Shape := ⟨3, ![1, 1024, 512]⟩
abbrev S1024x512 : Shape := ⟨2, ![1024, 512]⟩
abbrev S1x512 : Shape := ⟨2, ![1, 512]⟩
abbrev S1024x8x64 : Shape := ⟨3, ![1024, 8, 64]⟩
abbrev S8x1024x64 : Shape := ⟨3, ![8, 1024, 64]⟩
abbrev S8x64x1024 : Shape := ⟨3, ![8, 64, 1024]⟩
abbrev S8x64x64 : Shape := ⟨3, ![8, 64, 64]⟩

abbrev nBuf : Space → Nat
  | .hbm => 90
  | .vmem => 12
  | .smem => 0
  | _ => 0

abbrev bufTy : (tb : Table) → Fin (tcTables nBuf tb) → BufTy
  | .hbm, ⟨0, _⟩ => ⟨S8x1024x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S512x1, .f32⟩
  | .hbm, ⟨34, _⟩ => ⟨S512x512, .f32⟩
  | .hbm, ⟨35, _⟩ => ⟨S512x512, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S512x512, .f32⟩
  | .hbm, ⟨40, _⟩ => ⟨S512x512, .bf16⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S512, .f32⟩
  | .hbm, ⟨49, _⟩ => ⟨S512x1, .f32⟩
  | .hbm, ⟨50, _⟩ => ⟨S512x512, .f32⟩
  | .hbm, ⟨51, _⟩ => ⟨S512x512, .f32⟩
  | .hbm, ⟨52, _⟩ => ⟨S512, .f32⟩
  | .hbm, ⟨53, _⟩ => ⟨S512, .f32⟩
  | .hbm, ⟨54, _⟩ => ⟨S512, .f32⟩
  | .hbm, ⟨55, _⟩ => ⟨S512x512, .f32⟩
  | .hbm, ⟨56, _⟩ => ⟨S512x512, .bf16⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S512, .f32⟩
  | .hbm, ⟨61, _⟩ => ⟨S_, .f32⟩
  | .hbm, ⟨62, _⟩ => ⟨S512, .f32⟩
  | .hbm, ⟨63, _⟩ => ⟨S512, .f32⟩
  | .hbm, ⟨64, _⟩ => ⟨S512, .f32⟩
  | .hbm, ⟨65, _⟩ => ⟨S512x1, .f32⟩
  | .hbm, ⟨66, _⟩ => ⟨S512x512, .f32⟩
  | .hbm, ⟨67, _⟩ => ⟨S512x512, .f32⟩
  | .hbm, ⟨68, _⟩ => ⟨S512, .f32⟩
  | .hbm, ⟨69, _⟩ => ⟨S512, .f32⟩
  | .hbm, ⟨70, _⟩ => ⟨S512, .f32⟩
  | .hbm, ⟨71, _⟩ => ⟨S512x512, .f32⟩
  | .hbm, ⟨72, _⟩ => ⟨S512x512, .bf16⟩
  | .hbm, ⟨73, _⟩ => ⟨S_, .f32⟩
  | .hbm, ⟨74, _⟩ => ⟨S512, .f32⟩
  | .hbm, ⟨75, _⟩ => ⟨S512, .f32⟩
  | .hbm, ⟨76, _⟩ => ⟨S512, .f32⟩
  | .hbm, ⟨77, _⟩ => ⟨S_, .f32⟩
  | .hbm, ⟨78, _⟩ => ⟨S512, .f32⟩
  | .hbm, ⟨79, _⟩ => ⟨S512, .f32⟩
  | .hbm, ⟨80, _⟩ => ⟨S512, .f32⟩
  | .hbm, ⟨81, _⟩ => ⟨S512x1, .f32⟩
  | .hbm, ⟨82, _⟩ => ⟨S512x512, .f32⟩
  | .hbm, ⟨83, _⟩ => ⟨S512x512, .f32⟩
  | .hbm, ⟨84, _⟩ => ⟨S512, .f32⟩
  | .hbm, ⟨85, _⟩ => ⟨S512, .f32⟩
  | .hbm, ⟨86, _⟩ => ⟨S512, .f32⟩
  | .hbm, ⟨87, _⟩ => ⟨S512x512, .f32⟩
  | .hbm, ⟨88, _⟩ => ⟨S512x512, .bf16⟩
  | .hbm, ⟨89, _⟩ => ⟨S8x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .bf16⟩
  | .local _ .vmem, ⟨3, _⟩ => ⟨S512, .f32⟩
  | .local _ .vmem, ⟨4, _⟩ => ⟨S512x512, .bf16⟩
  | .local _ .vmem, ⟨5, _⟩ => ⟨S512, .f32⟩
  | .local _ .vmem, ⟨6, _⟩ => ⟨S512x512, .bf16⟩
  | .local _ .vmem, ⟨7, _⟩ => ⟨S512, .f32⟩
  | .local _ .vmem, ⟨8, _⟩ => ⟨S512x512, .bf16⟩
  | .local _ .vmem, ⟨9, _⟩ => ⟨S512, .f32⟩
  | .local _ .vmem, ⟨10, _⟩ => ⟨S1x1024x512, .f32⟩
  | .local _ .vmem, ⟨11, _⟩ => ⟨S1x1024x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_cst_0 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_4 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_5 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_6 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  transposes_S512x512_S512x512_1_0 : S512x512.Transposes [1, 0] S512x512
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S1024x512 : S1x512.Broadcasts S1024x512
  shapeCasts_S1024x512_S1024x8x64 : S1024x512.ShapeCasts S1024x8x64
  transposes_S1024x8x64_p1_0_2_S8x1024x64 : S1024x8x64.Transposes [1, 0, 2] S8x1024x64
  transposes_S1024x8x64_p1_2_0_S8x64x1024 : S1024x8x64.Transposes [1, 2, 0] S8x64x1024
  transposes_S8x1024x64_p1_0_2_S1024x8x64 : S8x1024x64.Transposes [1, 0, 2] S1024x8x64
  shapeCasts_S1024x8x64_S1024x512 : S1024x8x64.ShapeCasts S1024x512
  shapeCasts_S1024x512_S1x1024x512 : S1024x512.ShapeCasts S1x1024x512
  dot_S1024x512_S512x512_S1024x512_1_0_0_1_n_n_wf : DotDims.WF S1024x512 S512x512 S1024x512 [1] [0] [0] [1] [] []
  dot_S8x64x1024_S8x1024x64_S8x64x64_2_1_1_2_0_0_wf : DotDims.WF S8x64x1024 S8x1024x64 S8x64x64 [2] [1] [1] [2] [0] [0]
  dot_S8x1024x64_S8x64x64_S8x1024x64_2_1_1_2_0_0_wf : DotDims.WF S8x1024x64 S8x64x64 S8x1024x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x512.size a
  hwx0_0 : ∀ i : grid0.Coords, EltTy.bits .f32 = 32 ∨ (Rect.block (s := S8x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x512.size a ≤ S8x1024x512.size a
  hwx0_9 : ∀ i : grid0.Coords, EltTy.bits .f32 = 32 ∨ (Rect.block (s := S8x1024x512) S1x1024x512.size (cc0_transform_9 i) (hinb0_9 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S8x64x1024_S8x1024x64_S8x64x64_2_1_1_2_0_0 : DotDims S8x64x1024 S8x1024x64 S8x64x64 where
  lhsContracting := [2]
  rhsContracting := [1]
  lhsNonContracting := [1]
  rhsNonContracting := [2]
  lhsBatch := [0]
  rhsBatch := [0]
  wf := dot_S8x64x1024_S8x1024x64_S8x64x64_2_1_1_2_0_0_wf
def dot_S8x1024x64_S8x64x64_S8x1024x64_2_1_1_2_0_0 : DotDims S8x1024x64 S8x64x64 S8x1024x64 where
  lhsContracting := [2]
  rhsContracting := [1]
  lhsNonContracting := [1]
  rhsNonContracting := [2]
  lhsBatch := [0]
  rhsBatch := [0]
  wf := dot_S8x1024x64_S8x64x64_S8x1024x64_2_1_1_2_0_0_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v55) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v53) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v56) S1x1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x1024x512 : Shape := ⟨3, ![8, 1024, 512]⟩
abbrev S512x512 : Shape := ⟨2, ![512, 512]⟩
abbrev S512 : Shape := ⟨1, ![512]⟩
abbrev S1x1x512 : Shape := ⟨3, ![1, 1, 512]⟩
abbrev S_ : Shape := ⟨0, ![]⟩
abbrev S8x1024x8x64 : Shape := ⟨4, ![8, 1024, 8, 64]⟩
abbrev S8x8x1024x64 : Shape := ⟨4, ![8, 8, 1024, 64]⟩
abbrev S8x8x1024x1024 : Shape := ⟨4, ![8, 8, 1024, 1024]⟩

abbrev nBuf : Space → Nat
  | .hbm => 125
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S8x1024x512, .f32⟩
  | .hbm, ⟨26, _⟩ => ⟨S1x1x512, .f32⟩
  | .hbm, ⟨27, _⟩ => ⟨S8x1024x512, .f32⟩
  | .hbm, ⟨28, _⟩ => ⟨S8x1024x512, .f32⟩
  | .hbm, ⟨29, _⟩ => ⟨S1x1x512, .f32⟩
  | .hbm, ⟨30, _⟩ => ⟨S8x1024x512, .f32⟩
  | .hbm, ⟨31, _⟩ => ⟨S8x1024x512, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S512, .f32⟩
  | .hbm, ⟨36, _⟩ => ⟨S512, .f32⟩
  | .hbm, ⟨37, _⟩ => ⟨S1x1x512, .f32⟩
  | .hbm, ⟨38, _⟩ => ⟨S8x1024x512, .f32⟩
  | .hbm, ⟨39, _⟩ => ⟨S8x1024x512, .f32⟩
  | .hbm, ⟨40, _⟩ => ⟨S1x1x512, .f32⟩
  | .hbm, ⟨41, _⟩ => ⟨S8x1024x512, .f32⟩
  | .hbm, ⟨42, _⟩ => ⟨S8x1024x512, .f32⟩
  | .hbm, ⟨43, _⟩ => ⟨S_, .f32⟩
  | .hbm, ⟨44, _⟩ => ⟨S8x1024x512, .f32⟩
  | .hbm, ⟨45, _⟩ => ⟨S8x1024x512, .f32⟩
  | .hbm, ⟨46, _⟩ => ⟨S8x1024x8x64, .f32⟩
  | .hbm, ⟨47, _⟩ => ⟨S8x8x1024x64, .f32⟩
  | .hbm, ⟨48, _⟩ => ⟨S8x1024x512, .f32⟩
  | .hbm, ⟨49, _⟩ => ⟨S1x1x512, .f32⟩
  | .hbm, ⟨50, _⟩ => ⟨S8x1024x512, .f32⟩
  | .hbm, ⟨51, _⟩ => ⟨S8x1024x512, .f32⟩
  | .hbm, ⟨52, _⟩ => ⟨S1x1x512, .f32⟩
  | .hbm, ⟨53, _⟩ => ⟨S8x1024x512, .f32⟩
  | .hbm, ⟨54, _⟩ => ⟨S8x1024x512, .f32⟩
  | .hbm, ⟨55, _⟩ => ⟨S_, .f32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S512, .f32⟩
  | .hbm, ⟨60, _⟩ => ⟨S1x1x512, .f32⟩
  | .hbm, ⟨61, _⟩ => ⟨S8x1024x512, .f32⟩
  | .hbm, ⟨62, _⟩ => ⟨S8x1024x512, .f32⟩
  | .hbm, ⟨63, _⟩ => ⟨S1x1x512, .f32⟩
  | .hbm, ⟨64, _⟩ => ⟨S8x1024x512, .f32⟩
  | .hbm, ⟨65, _⟩ => ⟨S8x1024x512, .f32⟩
  | .hbm, ⟨66, _⟩ => ⟨S_, .f32⟩
  | .hbm, ⟨67, _⟩ => ⟨S8x1024x512, .f32⟩
  | .hbm, ⟨68, _⟩ => ⟨S8x1024x512, .f32⟩
  | .hbm, ⟨69, _⟩ => ⟨S8x1024x8x64, .f32⟩
  | .hbm, ⟨70, _⟩ => ⟨S8x8x1024x64, .f32⟩
  | .hbm, ⟨71, _⟩ => ⟨S8x1024x512, .f32⟩
  | .hbm, ⟨72, _⟩ => ⟨S1x1x512, .f32⟩
  | .hbm, ⟨73, _⟩ => ⟨S8x1024x512, .f32⟩
  | .hbm, ⟨74, _⟩ => ⟨S8x1024x512, .f32⟩
  | .hbm, ⟨75, _⟩ => ⟨S1x1x512, .f32⟩
  | .hbm, ⟨76, _⟩ => ⟨S8x1024x512, .f32⟩
  | .hbm, ⟨77, _⟩ => ⟨S8x1024x512, .f32⟩
  | .hbm, ⟨78, _⟩ => ⟨S_, .f32⟩
  | .hbm, ⟨79, _⟩ => ⟨S512, .f32⟩
  | .hbm, ⟨80, _⟩ => ⟨S512, .f32⟩
  | .hbm, ⟨81, _⟩ => ⟨S512, .f32⟩
  | .hbm, ⟨82, _⟩ => ⟨S512, .f32⟩
  | .hbm, ⟨83, _⟩ => ⟨S1x1x512, .f32⟩
  | .hbm, ⟨84, _⟩ => ⟨S8x1024x512, .f32⟩
  | .hbm, ⟨85, _⟩ => ⟨S8x1024x512, .f32⟩
  | .hbm, ⟨86, _⟩ => ⟨S1x1x512, .f32⟩
  | .hbm, ⟨87, _⟩ => ⟨S8x1024x512, .f32⟩
  | .hbm, ⟨88, _⟩ => ⟨S8x1024x512, .f32⟩
  | .hbm, ⟨89, _⟩ => ⟨S_, .f32⟩
  | .hbm, ⟨90, _⟩ => ⟨S8x1024x512, .f32⟩
  | .hbm, ⟨91, _⟩ => ⟨S8x1024x512, .f32⟩
  | .hbm, ⟨92, _⟩ => ⟨S8x1024x8x64, .f32⟩
  | .hbm, ⟨93, _⟩ => ⟨S8x8x1024x64, .f32⟩
  | .hbm, ⟨94, _⟩ => ⟨S8x8x1024x1024, .f32⟩
  | .hbm, ⟨95, _⟩ => ⟨S_, .f32⟩
  | .hbm, ⟨96, _⟩ => ⟨S8x8x1024x1024, .f32⟩
  | .hbm, ⟨97, _⟩ => ⟨S8x8x1024x1024, .f32⟩
  | .hbm, ⟨98, _⟩ => ⟨S8x8x1024x64, .f32⟩
  | .hbm, ⟨99, _⟩ => ⟨S8x1024x8x64, .f32⟩
  | .hbm, ⟨100, _⟩ => ⟨S8x1024x512, .f32⟩
  | .hbm, ⟨101, _⟩ => ⟨S_, .f32⟩
  | .hbm, ⟨102, _⟩ => ⟨S8x1024x512, .f32⟩
  | .hbm, ⟨103, _⟩ => ⟨S8x1024x512, .f32⟩
  | .hbm, ⟨104, _⟩ => ⟨S8x1024x512, .f32⟩
  | .hbm, ⟨105, _⟩ => ⟨S1x1x512, .f32⟩
  | .hbm, ⟨106, _⟩ => ⟨S8x1024x512, .f32⟩
  | .hbm, ⟨107, _⟩ => ⟨S8x1024x512, .f32⟩
  | .hbm, ⟨108, _⟩ => ⟨S1x1x512, .f32⟩
  | .hbm, ⟨109, _⟩ => ⟨S8x1024x512, .f32⟩
  | .hbm, ⟨110, _⟩ => ⟨S8x1024x512, .f32⟩
  | .hbm, ⟨111, _⟩ => ⟨S_, .f32⟩
  | .hbm, ⟨112, _⟩ => ⟨S512, .f32⟩
  | .hbm, ⟨113, _⟩ => ⟨S512, .f32⟩
  | .hbm, ⟨114, _⟩ => ⟨S512, .f32⟩
  | .hbm, ⟨115, _⟩ => ⟨S512, .f32⟩
  | .hbm, ⟨116, _⟩ => ⟨S1x1x512, .f32⟩
  | .hbm, ⟨117, _⟩ => ⟨S8x1024x512, .f32⟩
  | .hbm, ⟨118, _⟩ => ⟨S8x1024x512, .f32⟩
  | .hbm, ⟨119, _⟩ => ⟨S1x1x512, .f32⟩
  | .hbm, ⟨120, _⟩ => ⟨S8x1024x512, .f32⟩
  | .hbm, ⟨121, _⟩ => ⟨S8x1024x512, .f32⟩
  | .hbm, ⟨122, _⟩ => ⟨S_, .f32⟩
  | .hbm, ⟨123, _⟩ => ⟨S8x1024x512, .f32⟩
  | .hbm, ⟨124, _⟩ => ⟨S8x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_call0_cst : Ref sig .tc := ⟨.hbm, 43, rfl⟩
abbrev main_call0_v0 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_0 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call1_cst : Ref sig .tc := ⟨.hbm, 66, rfl⟩
abbrev main_call1_v0 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_1 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_call2_cst : Ref sig .tc := ⟨.hbm, 89, rfl⟩
abbrev main_call2_v0 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_2 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_call3_cst : Ref sig .tc := ⟨.hbm, 101, rfl⟩
abbrev main_call3_v0 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_3 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_call4_cst : Ref sig .tc := ⟨.hbm, 122, rfl⟩
abbrev main_call4_v0 : Ref sig .tc := ⟨.hbm, 123, rfl⟩
abbrev main_v84 : Ref sig .tc := ⟨.hbm, 124, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  bcast_S_S512 : S_.BroadcastsInDim S512 (![] : Fin 0 → Fin S512.rank)
  bcast_S_S8x1024x512 : S_.BroadcastsInDim S8x1024x512 (![] : Fin 0 → Fin S8x1024x512.rank)
  shapeCasts_S8x1024x512_S8x1024x8x64 : S8x1024x512.ShapeCasts S8x1024x8x64
  transposes_S8x1024x8x64_S8x8x1024x64_0_2_1_3 : S8x1024x8x64.Transposes [0, 2, 1, 3] S8x8x1024x64
  bcast_S_S8x8x1024x1024 : S_.BroadcastsInDim S8x8x1024x1024 (![] : Fin 0 → Fin S8x8x1024x1024.rank)
  transposes_S8x8x1024x64_S8x1024x8x64_0_2_1_3 : S8x8x1024x64.Transposes [0, 2, 1, 3] S8x1024x8x64
  shapeCasts_S8x1024x8x64_S8x1024x512 : S8x1024x8x64.ShapeCasts S8x1024x512
  dot_S8x1024x512_S512x512_S8x1024x512_2_1_01_0_n_n_wf : DotDims.WF S8x1024x512 S512x512 S8x1024x512 [2] [1] [0, 1] [0] [] []
  dot_S8x8x1024x64_S8x8x1024x64_S8x8x1024x1024_3_3_2_2_01_01_wf : DotDims.WF S8x8x1024x64 S8x8x1024x64 S8x8x1024x1024 [3] [3] [2] [2] [0, 1] [0, 1]
  dot_S8x8x1024x1024_S8x8x1024x64_S8x8x1024x64_3_2_2_3_01_01_wf : DotDims.WF S8x8x1024x1024 S8x8x1024x64 S8x8x1024x64 [3] [2] [2] [3] [0, 1] [0, 1]

variable [Facts₀]

def dot_S8x1024x512_S512x512_S8x1024x512_2_1_01_0_n_n : DotDims S8x1024x512 S512x512 S8x1024x512 where
  lhsContracting := [2]
  rhsContracting := [1]
  lhsNonContracting := [0, 1]
  rhsNonContracting := [0]
  lhsBatch := []
  rhsBatch := []
  wf := dot_S8x1024x512_S512x512_S8x1024x512_2_1_01_0_n_n_wf
def dot_S8x8x1024x64_S8x8x1024x64_S8x8x1024x1024_3_3_2_2_01_01 : DotDims S8x8x1024x64 S8x8x1024x64 S8x8x1024x1024 where
  lhsContracting := [3]
  rhsContracting := [3]
  lhsNonContracting := [2]
  rhsNonContracting := [2]
  lhsBatch := [0, 1]
  rhsBatch := [0, 1]
  wf := dot_S8x8x1024x64_S8x8x1024x64_S8x8x1024x1024_3_3_2_2_01_01_wf
def dot_S8x8x1024x1024_S8x8x1024x64_S8x8x1024x64_3_2_2_3_01_01 : DotDims S8x8x1024x1024 S8x8x1024x64 S8x8x1024x64 where
  lhsContracting := [3]
  rhsContracting := [2]
  lhsNonContracting := [2]
  rhsNonContracting := [3]
  lhsBatch := [0, 1]
  rhsBatch := [0, 1]
  wf := dot_S8x8x1024x1024_S8x8x1024x64_S8x8x1024x64_3_2_2_3_01_01_wf

class Facts : Prop extends Facts₀ where

variable [Facts]
-- ==== Proof.AttentionBlock.lean ====
/-
  The function both programs compute, written once over plain indices.

  One batch element is a matrix `x : 1024 × 512` (tokens × channels). A LAYER is a linear map followed by an
  eval-mode batch normalisation and a ReLU: for output channel `d`,
      `y d = max (((∑ c, x c · w d c) + b d − μ d) · (g d / √(var d + ε)) + β d) 0`.
  Three layers give `Q`, `K`, `V`; the 512 channels are 8 heads of 64 lanes (channel `64 h + l`); the attention
  has no softmax:  `A n (h, l) = ∑ m, ((∑ l', Q n (h, l') · K m (h, l')) · 1/8) · V m (h, l)`; a ReLU and a fourth
  layer follow.  That is `block`, the form the reference evaluates.

  The kernel evaluates the same thing in another arrangement (`blockF`): the normalisation's scale is multiplied
  into the weights and the bias beforehand, `∑ c, x c · (w d c · s d) + ((b d − μ d) · s d + β d)` with
  `s d = g d · (1 / √(var d + ε))`, and the attention is re-associated, `∑ l', Q n (h, l') · ((∑ m, K m (h, l') ·
  V m (h, l)) · 1/8)`.  On real numbers with `var d + ε > 0` the two arrangements agree (distributivity and an
  exchange of two finite sums); on the extended reals they need not, which is why the inputs' finiteness and the
  positivity of `var + ε` are used.
-/
import Idealize.ShloMosaic.PureOps.Ideal
import Idealize.ShloMosaic.PureOps.Ideal.Laws
import Idealize.ShloMosaic.Lib.ValueIdx

noncomputable section

namespace Cert.AttentionBlock

open Idealize.ShloMosaic Idealize.ShloMosaic.ValueIdx
open scoped BigOperators

/-- ε of the batch normalisation: the binary32 number nearest `1e-5`, the word both programs carry. -/
abbrev epsW : EReal := Ideal.ofBits .f32 0x3727C5AC#32
/-- The attention scale `1/8`, the word both programs carry. -/
abbrev sclW : EReal := Ideal.ofBits .f32 0x3E000000#32
/-- `1.0`, the numerator of the kernel's reciprocal standard deviation. -/
abbrev oneW : EReal := Ideal.ofBits .f32 0x3F800000#32

/-- Channel `64 h + l`: lane `l` of head `h`. -/
def hd (h : Fin 8) (l : Fin 64) : Fin 512 := ⟨64 * h.val + l.val, by omega⟩
/-- The head of a channel. -/
def headOf (c : Fin 512) : Fin 8 := ⟨c.val / 64, by omega⟩
/-- The lane of a channel inside its head. -/
def laneOf (c : Fin 512) : Fin 64 := ⟨c.val % 64, Nat.mod_lt _ (by norm_num)⟩

theorem hd_headOf_laneOf (c : Fin 512) : hd (headOf c) (laneOf c) = c :=
  Fin.ext (by simp only [hd, headOf, laneOf]; omega)

/-- The parameters of one linear + batch-normalisation layer; `w d c` weighs input channel `c` into output channel `d`. -/
structure Layer where
  w : Fin 512 → Fin 512 → EReal
  b : Fin 512 → EReal
  g : Fin 512 → EReal
  beta : Fin 512 → EReal
  mu : Fin 512 → EReal
  var : Fin 512 → EReal

/-- Every parameter of the layer is a real number and every `var + ε` is positive: the domain on which the two
    arrangements of the layer agree. -/
structure Layer.IsReal (P : Layer) : Prop where
  w : ∀ d c, ∃ r : ℝ, P.w d c = (r : EReal)
  b : ∀ d, ∃ r : ℝ, P.b d = (r : EReal)
  g : ∀ d, ∃ r : ℝ, P.g d = (r : EReal)
  beta : ∀ d, ∃ r : ℝ, P.beta d = (r : EReal)
  mu : ∀ d, ∃ r : ℝ, P.mu d = (r : EReal)
  var : ∀ d, ∃ r : ℝ, P.var d = (r : EReal)
  pos : ∀ d, (0 : EReal) < P.var d + epsW

/-- The normalisation's scale as a quotient: `g / √(var + ε)`. -/
def Layer.scale (P : Layer) (d : Fin 512) : EReal := Ideal.div (P.g d) (Ideal.sqrt (P.var d + epsW))

/-- The layer applied to one token: linear map, bias, centring, scaling, shift, ReLU — in that order. -/
def Layer.apply (P : Layer) (X : Fin 512 → EReal) (d : Fin 512) : EReal :=
  max ((((∑ c : Fin 512, X c * P.w d c) + P.b d) - P.mu d) * P.scale d + P.beta d) 0

/-- The same scale as a product with a reciprocal: `g · (1 / √(var + ε))`. -/
def Layer.scaleF (P : Layer) (d : Fin 512) : EReal := P.g d * Ideal.div oneW (Ideal.sqrt (P.var d + epsW))

/-- The layer with the scale folded into the weights and into the bias. -/
def Layer.applyF (P : Layer) (X : Fin 512 → EReal) (d : Fin 512) : EReal :=
  max ((∑ c : Fin 512, X c * (P.w d c * P.scaleF d)) + ((P.b d - P.mu d) * P.scaleF d + P.beta d)) 0

/-- Softmax-free attention, scores first: `∑ m, ((∑ l', Q n (h,l') · K m (h,l')) · 1/8) · V m (h,l)`. -/
def attn (Q K V : Fin 1024 → Fin 512 → EReal) (n : Fin 1024) (h : Fin 8) (l : Fin 64) : EReal :=
  ∑ m : Fin 1024, ((∑ l' : Fin 64, Q n (hd h l') * K m (hd h l')) * sclW) * V m (hd h l)

/-- The same attention, keys-times-values first: `∑ l', Q n (h,l') · ((∑ m, K m (h,l') · V m (h,l)) · 1/8)`. -/
def attnF (Q K V : Fin 1024 → Fin 512 → EReal) (n : Fin 1024) (h : Fin 8) (l : Fin 64) : EReal :=
  ∑ l' : Fin 64, Q n (hd h l') * ((∑ m : Fin 1024, K m (hd h l') * V m (hd h l)) * sclW)

/-- The whole block on one batch element, in the reference's arrangement. -/
def block (Pq Pk Pv Pp : Layer) (x : Fin 1024 → Fin 512 → EReal) (n : Fin 1024) (j : Fin 512) : EReal :=
  Pp.apply (fun c => max (attn (fun n' c' => Pq.apply (x n') c') (fun n' c' => Pk.apply (x n') c')
    (fun n' c' => Pv.apply (x n') c') n (headOf c) (laneOf c)) 0) j

/-- The whole block on one batch element, in the kernel's arrangement. -/
def blockF (Pq Pk Pv Pp : Layer) (x : Fin 1024 → Fin 512 → EReal) (n : Fin 1024) (j : Fin 512) : EReal :=
  Pp.applyF (fun c => max (attnF (fun n' c' => Pq.applyF (x n') c') (fun n' c' => Pk.applyF (x n') c')
    (fun n' c' => Pv.applyF (x n') c') n (headOf c) (laneOf c)) 0) j

/-- A layer's parameters read off its six argument arrays. -/
def layerOf (w : (⟨2, ![512, 512]⟩ : Shape).Idx → EReal) (b g beta mu var : (⟨1, ![512]⟩ : Shape).Idx → EReal) : Layer where
  w := fun d c => w (ix2 d c)
  b := fun d => b (ix1 d)
  g := fun d => g (ix1 d)
  beta := fun d => beta (ix1 d)
  mu := fun d => mu (ix1 d)
  var := fun d => var (ix1 d)

/-- Batch element `b` of the input array as a matrix. -/
def batchOf (x : (⟨3, ![8, 1024, 512]⟩ : Shape).Idx → EReal) (b : Fin 8) : Fin 1024 → Fin 512 → EReal :=
  fun n c => x (ix3 b n c)

/-- The result array as one function of the 25 argument arrays, in the reference's arrangement. -/
def result (a0 : (⟨3, ![8, 1024, 512]⟩ : Shape).Idx → EReal)
    (a1 : (⟨2, ![512, 512]⟩ : Shape).Idx → EReal) (a2 a3 a4 a5 a6 : (⟨1, ![512]⟩ : Shape).Idx → EReal)
    (a7 : (⟨2, ![512, 512]⟩ : Shape).Idx → EReal) (a8 a9 a10 a11 a12 : (⟨1, ![512]⟩ : Shape).Idx → EReal)
    (a13 : (⟨2, ![512, 512]⟩ : Shape).Idx → EReal) (a14 a15 a16 a17 a18 : (⟨1, ![512]⟩ : Shape).Idx → EReal)
    (a19 : (⟨2, ![512, 512]⟩ : Shape).Idx → EReal) (a20 a21 a22 a23 a24 : (⟨1, ![512]⟩ : Shape).Idx → EReal) :
    (⟨3, ![8, 1024, 512]⟩ : Shape).Idx → EReal := fun i =>
  block (layerOf a1 a2 a3 a4 a5 a6) (layerOf a7 a8 a9 a10 a11 a12) (layerOf a13 a14 a15 a16 a17 a18)
    (layerOf a19 a20 a21 a22 a23 a24) (batchOf a0 (i 0)) (i 1) (i 2)

/-- The same array in the kernel's arrangement. -/
def resultF (a0 : (⟨3, ![8, 1024, 512]⟩ : Shape).Idx → EReal)
    (a1 : (⟨2, ![512, 512]⟩ : Shape).Idx → EReal) (a2 a3 a4 a5 a6 : (⟨1, ![512]⟩ : Shape).Idx → EReal)
    (a7 : (⟨2, ![512, 512]⟩ : Shape).Idx → EReal) (a8 a9 a10 a11 a12 : (⟨1, ![512]⟩ : Shape).Idx → EReal)
    (a13 : (⟨2, ![512, 512]⟩ : Shape).Idx → EReal) (a14 a15 a16 a17 a18 : (⟨1, ![512]⟩ : Shape).Idx → EReal)
    (a19 : (⟨2, ![512, 512]⟩ : Shape).Idx → EReal) (a20 a21 a22 a23 a24 : (⟨1, ![512]⟩ : Shape).Idx → EReal) :
    (⟨3, ![8, 1024, 512]⟩ : Shape).Idx → EReal := fun i =>
  blockF (layerOf a1 a2 a3 a4 a5 a6) (layerOf a7 a8 a9 a10 a11 a12) (layerOf a13 a14 a15 a16 a17 a18)
    (layerOf a19 a20 a21 a22 a23 a24) (batchOf a0 (i 0)) (i 1) (i 2)

end Cert.AttentionBlock

end
-- ==== Proof.Rearrange.lean ====
/-
  The two arrangements of the attention block agree on real inputs.

  Every quantity here is an extended real. On the real numbers the kernel's arrangement and the reference's are
  the same function: folding the normalisation's scale into the weights and the bias is distributivity, and the
  re-association of the attention is an exchange of two finite sums. Neither law holds on all of the extended
  reals (a product with an infinity does not distribute over a sum of opposite signs), so each proof first names
  the real number behind every input, pushes the inclusion of the reals outward through sums, products,
  differences and maxima, and then argues in the real numbers.

  For each of the two building blocks (a layer, the attention) one lemma says that BOTH arrangements are the
  inclusion of one and the same real number; the equality of the arrangements and the realness of the value are
  its two corollaries. The block composes them: the three inner layers agree entry by entry and are real, hence
  the two attentions agree and are real, hence so are their rectifications, hence the outer layers agree.
-/
import proofs.«153185_j85633057947962_2_alg».proof.Proof.AttentionBlock
import Mathlib.Data.EReal.Operations
import Mathlib.Data.EReal.Inv
import Mathlib.Algebra.BigOperators.Ring.Finset
import Mathlib.Tactic

noncomputable section

namespace Cert.AttentionBlock

open Idealize.ShloMosaic
open scoped BigOperators

/-! ### The inclusion of the reals commutes with finite sums and with maxima -/

/-- The inclusion of the reals into the extended reals commutes with a finite sum. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals is monotone, so it commutes with a maximum. -/
theorem coe_max' (a b : ℝ) : ((max a b : ℝ) : EReal) = max (a : EReal) (b : EReal) :=
  EReal.coe_strictMono.monotone.map_max

/-! ### The three words -/

/-- A pattern whose exponent field is not all ones denotes a real number (zero, a subnormal or a normal). -/
theorem ieee_real (e m : ℕ) {w : ℕ} (b : BitVec w) (h : (b.extractLsb' m e).toNat ≠ 2 ^ e - 1) :
    ∃ r : ℝ, Ideal.ieee e m b = (r : EReal) := by
  unfold Ideal.ieee
  simp only [if_neg h]
  split_ifs <;> exact ⟨_, rfl⟩

/-- The word `0x3F800000` is the number one. -/
theorem oneW_eq : oneW = 1 := by
  simp [oneW, Ideal.ofBits, Ideal.ieee, -EReal.coe_mul]; norm_num

/-- ε is a real number: its exponent field is not all ones. -/
theorem epsW_real : ∃ e : ℝ, epsW = (e : EReal) :=
  ieee_real 8 23 (0x3727C5AC#32 : BitVec 32) (by decide)

/-- The attention scale is a real number: its exponent field is not all ones. -/
theorem sclW_real : ∃ s : ℝ, sclW = (s : EReal) :=
  ieee_real 8 23 (0x3E000000#32 : BitVec 32) (by decide)

/-! ### One layer -/

/-- Folding a scale into the weights and the bias, in the real numbers: distributivity. -/
theorem fold_real (x w : Fin 512 → ℝ) (b mu σ beta : ℝ) :
    (∑ c, x c * (w c * σ)) + ((b - mu) * σ + beta) = (((∑ c, x c * w c) + b) - mu) * σ + beta := by
  have h : ∑ c, x c * (w c * σ) = (∑ c, x c * w c) * σ := by
    rw [Finset.sum_mul]; exact Finset.sum_congr rfl (fun c _ => by ring)
  rw [h]; ring

/-- On a layer with real parameters and positive `var + ε`, the scale written as a quotient and the scale
    written as a product with a reciprocal are one and the same real number. -/
theorem Layer.scale_real (P : Layer) (hP : P.IsReal) (d : Fin 512) :
    ∃ σ : ℝ, P.scale d = (σ : EReal) ∧ P.scaleF d = (σ : EReal) := by
  obtain ⟨g, hg⟩ := hP.g d
  obtain ⟨v, hv⟩ := hP.var d
  obtain ⟨e, he⟩ := epsW_real
  have hpos : 0 < v + e := by
    have h := hP.pos d
    rw [hv, he, ← EReal.coe_add] at h
    exact EReal.coe_pos.mp h
  have hs : Real.sqrt (v + e) ≠ 0 := (Real.sqrt_pos.mpr hpos).ne'
  have hsq : Ideal.sqrt (P.var d + epsW) = ((Real.sqrt (v + e) : ℝ) : EReal) := by
    rw [hv, he, ← EReal.coe_add, Ideal.sqrt_coe, if_neg (not_lt.mpr hpos.le)]
  refine ⟨g * (1 / Real.sqrt (v + e)), ?_, ?_⟩
  · rw [Layer.scale, hsq, Ideal.div_coe hs, hg, EReal.coe_mul]
  · rw [Layer.scaleF, hsq, Ideal.div_coe hs, hg, oneW_eq, one_mul, EReal.coe_mul]

/-- The reference's form of a layer on real data is the inclusion of the same expression over the reals. -/
theorem apply_coe (x w : Fin 512 → ℝ) (b mu σ beta : ℝ) :
    max (((((∑ c, (x c : EReal) * (w c : EReal)) + (b : EReal)) - (mu : EReal)) * (σ : EReal)) + (beta : EReal)) 0
      = ((max ((((∑ c, x c * w c) + b) - mu) * σ + beta) 0 : ℝ) : EReal) := by
  rw [coe_max', EReal.coe_zero, EReal.coe_add, EReal.coe_mul, EReal.coe_sub, EReal.coe_add, coe_finsum]
  simp only [EReal.coe_mul]

/-- The kernel's form of a layer on real data is the inclusion of the same expression over the reals. -/
theorem applyF_coe (x w : Fin 512 → ℝ) (b mu σ beta : ℝ) :
    max ((∑ c, (x c : EReal) * ((w c : EReal) * (σ : EReal))) + (((b : EReal) - (mu : EReal)) * (σ : EReal) + (beta : EReal))) 0
      = ((max ((∑ c, x c * (w c * σ)) + ((b - mu) * σ + beta)) 0 : ℝ) : EReal) := by
  rw [coe_max', EReal.coe_zero, EReal.coe_add, EReal.coe_add, EReal.coe_mul, EReal.coe_sub, coe_finsum]
  simp only [EReal.coe_mul]

/-- Both forms of a layer, on real data, are the inclusion of one real number. -/
theorem Layer.apply_both (P : Layer) (hP : P.IsReal) (X : Fin 512 → EReal)
    (hX : ∀ c, ∃ r : ℝ, X c = (r : EReal)) (d : Fin 512) :
    ∃ r : ℝ, P.apply X d = (r : EReal) ∧ P.applyF X d = (r : EReal) := by
  choose x hx using hX
  choose w hw using hP.w d
  obtain ⟨b, hb⟩ := hP.b d
  obtain ⟨beta, hbeta⟩ := hP.beta d
  obtain ⟨mu, hmu⟩ := hP.mu d
  obtain ⟨σ, hσ, hσF⟩ := P.scale_real hP d
  refine ⟨max ((((∑ c, x c * w c) + b) - mu) * σ + beta) 0, ?_, ?_⟩
  · rw [Layer.apply, hσ, hb, hbeta, hmu]
    simp only [hx, hw]
    exact apply_coe x w b mu σ beta
  · rw [Layer.applyF, hσF, hb, hbeta, hmu]
    simp only [hx, hw]
    rw [applyF_coe, fold_real]

theorem Layer.applyF_eq_apply (P : Layer) (hP : P.IsReal) (X : Fin 512 → EReal)
    (hX : ∀ c, ∃ r : ℝ, X c = (r : EReal)) (d : Fin 512) : P.applyF X d = P.apply X d := by
  obtain ⟨r, h1, h2⟩ := P.apply_both hP X hX d
  rw [h1, h2]

theorem Layer.apply_real (P : Layer) (hP : P.IsReal) (X : Fin 512 → EReal)
    (hX : ∀ c, ∃ r : ℝ, X c = (r : EReal)) (d : Fin 512) : ∃ r : ℝ, P.apply X d = (r : EReal) := by
  obtain ⟨r, h1, _⟩ := P.apply_both hP X hX d
  exact ⟨r, h1⟩

/-! ### The attention -/

/-- The two associations of the attention agree in the real numbers: an exchange of two finite sums. -/
theorem attn_exchange_real (q : Fin 64 → ℝ) (k : Fin 1024 → Fin 64 → ℝ) (v : Fin 1024 → ℝ) (s : ℝ) :
    (∑ l', q l' * ((∑ m, k m l' * v m) * s)) = ∑ m, ((∑ l', q l' * k m l') * s) * v m := by
  simp only [Finset.sum_mul, Finset.mul_sum]
  rw [Finset.sum_comm]
  refine Finset.sum_congr rfl (fun m _ => Finset.sum_congr rfl (fun l' _ => ?_))
  ring

/-- The reference's association on real data is the inclusion of the same expression over the reals. -/
theorem attn_coe (q : Fin 64 → ℝ) (k : Fin 1024 → Fin 64 → ℝ) (v : Fin 1024 → ℝ) (s : ℝ) :
    (∑ m, ((∑ l', (q l' : EReal) * (k m l' : EReal)) * (s : EReal)) * (v m : EReal))
      = ((∑ m, ((∑ l', q l' * k m l') * s) * v m : ℝ) : EReal) := by
  rw [coe_finsum]
  refine Finset.sum_congr rfl (fun m _ => ?_)
  rw [EReal.coe_mul, EReal.coe_mul, coe_finsum]
  simp only [EReal.coe_mul]

/-- The kernel's association on real data is the inclusion of the same expression over the reals. -/
theorem attnF_coe (q : Fin 64 → ℝ) (k : Fin 1024 → Fin 64 → ℝ) (v : Fin 1024 → ℝ) (s : ℝ) :
    (∑ l', (q l' : EReal) * ((∑ m, (k m l' : EReal) * (v m : EReal)) * (s : EReal)))
      = ((∑ l', q l' * ((∑ m, k m l' * v m) * s) : ℝ) : EReal) := by
  rw [coe_finsum]
  refine Finset.sum_congr rfl (fun l' _ => ?_)
  rw [EReal.coe_mul, EReal.coe_mul, coe_finsum]
  simp only [EReal.coe_mul]

/-- Both associations of the attention, on real data, are the inclusion of one real number. -/
theorem attn_both (Q K V : Fin 1024 → Fin 512 → EReal)
    (hQ : ∀ n c, ∃ r : ℝ, Q n c = (r : EReal)) (hK : ∀ n c, ∃ r : ℝ, K n c = (r : EReal))
    (hV : ∀ n c, ∃ r : ℝ, V n c = (r : EReal)) (n : Fin 1024) (h : Fin 8) (l : Fin 64) :
    ∃ r : ℝ, attn Q K V n h l = (r : EReal) ∧ attnF Q K V n h l = (r : EReal) := by
  choose q hq using hQ
  choose k hk using hK
  choose v hv using hV
  obtain ⟨s, hs⟩ := sclW_real
  refine ⟨∑ m, ((∑ l', q n (hd h l') * k m (hd h l')) * s) * v m (hd h l), ?_, ?_⟩
  · rw [attn, hs]
    simp only [hq, hk, hv]
    exact attn_coe (fun l' => q n (hd h l')) (fun m l' => k m (hd h l')) (fun m => v m (hd h l)) s
  · rw [attnF, hs]
    simp only [hq, hk, hv]
    rw [attnF_coe (fun l' => q n (hd h l')) (fun m l' => k m (hd h l')) (fun m => v m (hd h l)) s,
      attn_exchange_real]

theorem attnF_eq_attn (Q K V : Fin 1024 → Fin 512 → EReal)
    (hQ : ∀ n c, ∃ r : ℝ, Q n c = (r : EReal)) (hK : ∀ n c, ∃ r : ℝ, K n c = (r : EReal))
    (hV : ∀ n c, ∃ r : ℝ, V n c = (r : EReal)) (n : Fin 1024) (h : Fin 8) (l : Fin 64) :
    attnF Q K V n h l = attn Q K V n h l := by
  obtain ⟨r, h1, h2⟩ := attn_both Q K V hQ hK hV n h l
  rw [h1, h2]

theorem attn_real (Q K V : Fin 1024 → Fin 512 → EReal)
    (hQ : ∀ n c, ∃ r : ℝ, Q n c = (r : EReal)) (hK : ∀ n c, ∃ r : ℝ, K n c = (r : EReal))
    (hV : ∀ n c, ∃ r : ℝ, V n c = (r : EReal)) (n : Fin 1024) (h : Fin 8) (l : Fin 64) :
    ∃ r : ℝ, attn Q K V n h l = (r : EReal) := by
  obtain ⟨r, h1, _⟩ := attn_both Q K V hQ hK hV n h l
  exact ⟨r, h1⟩

/-! ### The block -/

theorem blockF_eq_block (Pq Pk Pv Pp : Layer) (hq : Pq.IsReal) (hk : Pk.IsReal) (hv : Pv.IsReal)
    (hp : Pp.IsReal) (x : Fin 1024 → Fin 512 → EReal) (hx : ∀ n c, ∃ r : ℝ, x n c = (r : EReal))
    (n : Fin 1024) (j : Fin 512) : blockF Pq Pk Pv Pp x n j = block Pq Pk Pv Pp x n j := by
  -- the three inner layers: the folded form is the reference's form, entry by entry
  have eq : (fun n' c' => Pq.applyF (x n') c') = fun n' c' => Pq.apply (x n') c' :=
    funext fun n' => funext fun c' => Pq.applyF_eq_apply hq (x n') (hx n') c'
  have ek : (fun n' c' => Pk.applyF (x n') c') = fun n' c' => Pk.apply (x n') c' :=
    funext fun n' => funext fun c' => Pk.applyF_eq_apply hk (x n') (hx n') c'
  have ev : (fun n' c' => Pv.applyF (x n') c') = fun n' c' => Pv.apply (x n') c' :=
    funext fun n' => funext fun c' => Pv.applyF_eq_apply hv (x n') (hx n') c'
  -- their values are real numbers
  have rq : ∀ n' c', ∃ r : ℝ, (fun n' c' => Pq.apply (x n') c') n' c' = (r : EReal) :=
    fun n' c' => Pq.apply_real hq (x n') (hx n') c'
  have rk : ∀ n' c', ∃ r : ℝ, (fun n' c' => Pk.apply (x n') c') n' c' = (r : EReal) :=
    fun n' c' => Pk.apply_real hk (x n') (hx n') c'
  have rv : ∀ n' c', ∃ r : ℝ, (fun n' c' => Pv.apply (x n') c') n' c' = (r : EReal) :=
    fun n' c' => Pv.apply_real hv (x n') (hx n') c'
  -- so the two associations of the attention agree, and the rectified attention is real
  have ea : (fun c => max (attnF (fun n' c' => Pq.apply (x n') c') (fun n' c' => Pk.apply (x n') c')
        (fun n' c' => Pv.apply (x n') c') n (headOf c) (laneOf c)) 0)
      = fun c => max (attn (fun n' c' => Pq.apply (x n') c') (fun n' c' => Pk.apply (x n') c')
        (fun n' c' => Pv.apply (x n') c') n (headOf c) (laneOf c)) 0 :=
    funext fun c => by rw [attnF_eq_attn _ _ _ rq rk rv]
  have ra : ∀ c, ∃ r : ℝ, (fun c => max (attn (fun n' c' => Pq.apply (x n') c')
        (fun n' c' => Pk.apply (x n') c') (fun n' c' => Pv.apply (x n') c') n (headOf c) (laneOf c)) 0) c
      = (r : EReal) := fun c => by
    obtain ⟨r, hr⟩ := attn_real _ _ _ rq rk rv n (headOf c) (laneOf c)
    exact ⟨max r 0, by rw [coe_max', EReal.coe_zero, ← hr]⟩
  rw [blockF, block, eq, ek, ev, ea]
  exact Pp.applyF_eq_apply hp _ ra j

end Cert.AttentionBlock

end
-- ==== Proof.InputDomain.lean ====
/-
  The precondition of the claim, read back at the ideal instance (floats are extended reals).

  The printed predicate is a conjunction of 29 conditions, each a reduction by "and" of a pointwise
  comparison: for every argument array, "|x| < +inf at every entry"; for the four variance vectors,
  "x + eps > 0 at every entry". On the extended reals |x| = max x (-x) is below +inf exactly when x is a
  real number, so the conjunction says: every entry of every argument is a real number, and every
  variance entry plus eps is positive.
-/
import proofs.«153185_j85633057947962_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.InputDomain

open Idealize.ShloMosaic
open Cert.Pre_finite_inputs

/-- The scalar shape has exactly one index. -/
instance subsingleton_scalar_idx : Subsingleton S_.Idx := ⟨fun a b => funext fun d => d.elim0⟩

/-- A one-bit word made from a Boolean is 1 exactly when the Boolean is true. -/
theorem ofBool_eq_one {b : Bool} : BitVec.ofBool b = 1#1 ↔ b = true := by cases b <;> decide

/-- The pattern 0x7F800000 (exponent all ones, fraction zero, sign clear) denotes +inf. -/
theorem ofBits_inf : Ideal.ofBits .f32 0x7F800000#32 = (⊤ : EReal) := by
  simp [Ideal.ofBits, Ideal.ieee]

/-- On the extended reals, |x| = max x (-x) is below +inf exactly when x is a real number:
    at -inf the negation is +inf, at +inf the value itself is. -/
theorem real_of_abs_lt_top (x : EReal) (h : max x (-x) < (⊤ : EReal)) : ∃ r : ℝ, x = (r : EReal) := by
  induction x using EReal.rec with
  | bot => simp at h
  | coe r => exact ⟨r, rfl⟩
  | top => simp at h

variable {s : Shape} {axes : List (Fin s.rank)}

/-- One "all entries are finite" conjunct, read back: if the reduction by "and" of the comparison
    |a| < +inf is 1, every entry of a is a real number. -/
theorem real_of_all_abs_lt (a : FVec Ideal s .f32) (hb : S_.BroadcastsInDim s (![] : Fin 0 → Fin s.rank))
    (hr : s.ReducesTo axes S_) (hu : 0 < S_.numel)
    (e : Host.reduce IntOp.andi
          (cmpf .olt (Host.absf a) (broadcastInDim s ![] hb (constant S_ .f32 0x7F800000#32)))
          (constantI S_ 1 1#1) hr hu ValueIdx.ix0 = 1#1) :
    ∀ i, ∃ r : ℝ, a i = (r : EReal) := by
  intro i
  have hi := Host.reduce_andi_all _ _ hr hu _ e i
  change Ideal.cmp .olt (max (a i) (-(a i))) (Ideal.ofBits .f32 0x7F800000#32) = 1#1 at hi
  rw [ofBits_inf, Ideal.cmp, ofBool_eq_one, decide_eq_true_eq] at hi
  exact real_of_abs_lt_top _ hi

/-- One "variance plus eps is positive" conjunct, read back: if the reduction by "and" of the
    comparison a + eps > 0 is 1, every entry of a plus eps is above zero. -/
theorem pos_of_all_add_gt (a : FVec Ideal s .f32) (hb hb' : S_.BroadcastsInDim s (![] : Fin 0 → Fin s.rank))
    (hr : s.ReducesTo axes S_) (hu : 0 < S_.numel)
    (e : Host.reduce IntOp.andi
          (cmpf .ogt (addf a (broadcastInDim s ![] hb (constant S_ .f32 0x3727C5AC#32)))
            (broadcastInDim s ![] hb' (constant S_ .f32 0x00000000#32)))
          (constantI S_ 1 1#1) hr hu ValueIdx.ix0 = 1#1) :
    ∀ i, (0 : EReal) < a i + Ideal.ofBits .f32 0x3727C5AC#32 := by
  intro i
  have hi := Host.reduce_andi_all _ _ hr hu _ e i
  change Ideal.cmp .ogt (a i + Ideal.ofBits .f32 0x3727C5AC#32) (Ideal.ofBits .f32 0x00000000#32) = 1#1 at hi
  rw [Ideal.ofBits_zero_f32, Ideal.cmp, ofBool_eq_one, decide_eq_true_eq] at hi
  exact hi

/-- A conjunction of two scalar one-bit words that is 1 has both words 1. -/
theorem andi_split (x y : IVec S_ 1) (h : andi x y ValueIdx.ix0 = 1#1) :
    x ValueIdx.ix0 = 1#1 ∧ y ValueIdx.ix0 = 1#1 := IntOp.andi_eq_one.1 h

/-- Every entry of every argument is a real number, and each variance plus eps is positive. -/
structure Holds
    (a0 : FVec Ideal S8x1024x512 .f32) (a1 : FVec Ideal S512x512 .f32) (a2 : FVec Ideal S512 .f32)
    (a3 : FVec Ideal S512 .f32) (a4 : FVec Ideal S512 .f32) (a5 : FVec Ideal S512 .f32)
    (a6 : FVec Ideal S512 .f32) (a7 : FVec Ideal S512x512 .f32) (a8 : FVec Ideal S512 .f32)
    (a9 : FVec Ideal S512 .f32) (a10 : FVec Ideal S512 .f32) (a11 : FVec Ideal S512 .f32)
    (a12 : FVec Ideal S512 .f32) (a13 : FVec Ideal S512x512 .f32) (a14 : FVec Ideal S512 .f32)
    (a15 : FVec Ideal S512 .f32) (a16 : FVec Ideal S512 .f32) (a17 : FVec Ideal S512 .f32)
    (a18 : FVec Ideal S512 .f32) (a19 : FVec Ideal S512x512 .f32) (a20 : FVec Ideal S512 .f32)
    (a21 : FVec Ideal S512 .f32) (a22 : FVec Ideal S512 .f32) (a23 : FVec Ideal S512 .f32)
    (a24 : FVec Ideal S512 .f32) : Prop where
  fin0 : ∀ i, ∃ r : ℝ, a0 i = (r : EReal)
  fin1 : ∀ i, ∃ r : ℝ, a1 i = (r : EReal)
  fin2 : ∀ i, ∃ r : ℝ, a2 i = (r : EReal)
  fin3 : ∀ i, ∃ r : ℝ, a3 i = (r : EReal)
  fin4 : ∀ i, ∃ r : ℝ, a4 i = (r : EReal)
  fin5 : ∀ i, ∃ r : ℝ, a5 i = (r : EReal)
  fin6 : ∀ i, ∃ r : ℝ, a6 i = (r : EReal)
  fin7 : ∀ i, ∃ r : ℝ, a7 i = (r : EReal)
  fin8 : ∀ i, ∃ r : ℝ, a8 i = (r : EReal)
  fin9 : ∀ i, ∃ r : ℝ, a9 i = (r : EReal)
  fin10 : ∀ i, ∃ r : ℝ, a10 i = (r : EReal)
  fin11 : ∀ i, ∃ r : ℝ, a11 i = (r : EReal)
  fin12 : ∀ i, ∃ r : ℝ, a12 i = (r : EReal)
  fin13 : ∀ i, ∃ r : ℝ, a13 i = (r : EReal)
  fin14 : ∀ i, ∃ r : ℝ, a14 i = (r : EReal)
  fin15 : ∀ i, ∃ r : ℝ, a15 i = (r : EReal)
  fin16 : ∀ i, ∃ r : ℝ, a16 i = (r : EReal)
  fin17 : ∀ i, ∃ r : ℝ, a17 i = (r : EReal)
  fin18 : ∀ i, ∃ r : ℝ, a18 i = (r : EReal)
  fin19 : ∀ i, ∃ r : ℝ, a19 i = (r : EReal)
  fin20 : ∀ i, ∃ r : ℝ, a20 i = (r : EReal)
  fin21 : ∀ i, ∃ r : ℝ, a21 i = (r : EReal)
  fin22 : ∀ i, ∃ r : ℝ, a22 i = (r : EReal)
  fin23 : ∀ i, ∃ r : ℝ, a23 i = (r : EReal)
  fin24 : ∀ i, ∃ r : ℝ, a24 i = (r : EReal)
  pos6 : ∀ i, (0 : EReal) < a6 i + Ideal.ofBits .f32 0x3727C5AC#32
  pos12 : ∀ i, (0 : EReal) < a12 i + Ideal.ofBits .f32 0x3727C5AC#32
  pos18 : ∀ i, (0 : EReal) < a18 i + Ideal.ofBits .f32 0x3727C5AC#32
  pos24 : ∀ i, (0 : EReal) < a24 i + Ideal.ofBits .f32 0x3727C5AC#32

/-- The printed precondition, when it holds, gives the decoded facts: the conjunction is split word by
    word from the outside in (the four positivity conditions were conjoined last, the finiteness
    conditions in argument order before them), and each conjunct is read back entry by entry. -/
theorem of_pre [Cert.Pre_finite_inputs.Facts]
    (a0 : FVec Ideal S8x1024x512 .f32) (a1 : FVec Ideal S512x512 .f32) (a2 : FVec Ideal S512 .f32)
    (a3 : FVec Ideal S512 .f32) (a4 : FVec Ideal S512 .f32) (a5 : FVec Ideal S512 .f32)
    (a6 : FVec Ideal S512 .f32) (a7 : FVec Ideal S512x512 .f32) (a8 : FVec Ideal S512 .f32)
    (a9 : FVec Ideal S512 .f32) (a10 : FVec Ideal S512 .f32) (a11 : FVec Ideal S512 .f32)
    (a12 : FVec Ideal S512 .f32) (a13 : FVec Ideal S512x512 .f32) (a14 : FVec Ideal S512 .f32)
    (a15 : FVec Ideal S512 .f32) (a16 : FVec Ideal S512 .f32) (a17 : FVec Ideal S512 .f32)
    (a18 : FVec Ideal S512 .f32) (a19 : FVec Ideal S512x512 .f32) (a20 : FVec Ideal S512 .f32)
    (a21 : FVec Ideal S512 .f32) (a22 : FVec Ideal S512 .f32) (a23 : FVec Ideal S512 .f32)
    (a24 : FVec Ideal S512 .f32)
    (h : Cert.Pre_finite_inputs.fn (F := Ideal) a0 a1 a2 a3 a4 a5 a6 a7 a8 a9 a10 a11 a12 a13 a14 a15 a16 a17 a18 a19 a20 a21 a22 a23 a24 = fun _ => 1#1) :
    Holds a0 a1 a2 a3 a4 a5 a6 a7 a8 a9 a10 a11 a12 a13 a14 a15 a16 a17 a18 a19 a20 a21 a22 a23 a24 := by
  have h0 : Cert.Pre_finite_inputs.fn (F := Ideal) a0 a1 a2 a3 a4 a5 a6 a7 a8 a9 a10 a11 a12 a13 a14 a15 a16 a17 a18 a19 a20 a21 a22 a23 a24 ValueIdx.ix0 = 1#1 :=
    congrFun h ValueIdx.ix0
  dsimp only [fn, fn_part1, fn_part2, fn_part3, fn_part4, fn_part5, fn_part6, fn_part7, fn_part8] at h0
  obtain ⟨h0, p24⟩ := andi_split _ _ h0
  obtain ⟨h0, p18⟩ := andi_split _ _ h0
  obtain ⟨h0, p12⟩ := andi_split _ _ h0
  obtain ⟨h0, p6⟩ := andi_split _ _ h0
  obtain ⟨h0, f24⟩ := andi_split _ _ h0
  obtain ⟨h0, f23⟩ := andi_split _ _ h0
  obtain ⟨h0, f22⟩ := andi_split _ _ h0
  obtain ⟨h0, f21⟩ := andi_split _ _ h0
  obtain ⟨h0, f20⟩ := andi_split _ _ h0
  obtain ⟨h0, f19⟩ := andi_split _ _ h0
  obtain ⟨h0, f18⟩ := andi_split _ _ h0
  obtain ⟨h0, f17⟩ := andi_split _ _ h0
  obtain ⟨h0, f16⟩ := andi_split _ _ h0
  obtain ⟨h0, f15⟩ := andi_split _ _ h0
  obtain ⟨h0, f14⟩ := andi_split _ _ h0
  obtain ⟨h0, f13⟩ := andi_split _ _ h0
  obtain ⟨h0, f12⟩ := andi_split _ _ h0
  obtain ⟨h0, f11⟩ := andi_split _ _ h0
  obtain ⟨h0, f10⟩ := andi_split _ _ h0
  obtain ⟨h0, f9⟩ := andi_split _ _ h0
  obtain ⟨h0, f8⟩ := andi_split _ _ h0
  obtain ⟨h0, f7⟩ := andi_split _ _ h0
  obtain ⟨h0, f6⟩ := andi_split _ _ h0
  obtain ⟨h0, f5⟩ := andi_split _ _ h0
  obtain ⟨h0, f4⟩ := andi_split _ _ h0
  obtain ⟨h0, f3⟩ := andi_split _ _ h0
  obtain ⟨h0, f2⟩ := andi_split _ _ h0
  obtain ⟨f0, f1⟩ := andi_split _ _ h0
  exact
    ⟨real_of_all_abs_lt a0 _ _ _ f0,
     real_of_all_abs_lt a1 _ _ _ f1,
     real_of_all_abs_lt a2 _ _ _ f2,
     real_of_all_abs_lt a3 _ _ _ f3,
     real_of_all_abs_lt a4 _ _ _ f4,
     real_of_all_abs_lt a5 _ _ _ f5,
     real_of_all_abs_lt a6 _ _ _ f6,
     real_of_all_abs_lt a7 _ _ _ f7,
     real_of_all_abs_lt a8 _ _ _ f8,
     real_of_all_abs_lt a9 _ _ _ f9,
     real_of_all_abs_lt a10 _ _ _ f10,
     real_of_all_abs_lt a11 _ _ _ f11,
     real_of_all_abs_lt a12 _ _ _ f12,
     real_of_all_abs_lt a13 _ _ _ f13,
     real_of_all_abs_lt a14 _ _ _ f14,
     real_of_all_abs_lt a15 _ _ _ f15,
     real_of_all_abs_lt a16 _ _ _ f16,
     real_of_all_abs_lt a17 _ _ _ f17,
     real_of_all_abs_lt a18 _ _ _ f18,
     real_of_all_abs_lt a19 _ _ _ f19,
     real_of_all_abs_lt a20 _ _ _ f20,
     real_of_all_abs_lt a21 _ _ _ f21,
     real_of_all_abs_lt a22 _ _ _ f22,
     real_of_all_abs_lt a23 _ _ _ f23,
     real_of_all_abs_lt a24 _ _ _ f24,
     pos_of_all_add_gt a6 _ _ _ _ p6,
     pos_of_all_add_gt a12 _ _ _ _ p12,
     pos_of_all_add_gt a18 _ _ _ _ p18,
     pos_of_all_add_gt a24 _ _ _ _ p24⟩

end Cert.InputDomain
end
-- ==== Proof.ReferenceValue.lean ====
/-
  The reference program's result as one function of its arguments.

  The reference evaluates, for each of the query, key and value layers, a contraction of the token with the weight
  matrix, then bias, centring, scaling, shift and ReLU; splits the 512 channels into 8 heads of 64 lanes; contracts
  queries with keys over the lanes, multiplies by 1/8, contracts the scores with the values over the tokens; merges
  the heads back into channels; applies a ReLU and the output layer.  Each stage is read at an index from the stage
  before it, and the composition is the attention block written over plain indices.
-/
import proofs.«153185_j85633057947962_2_alg».proof.Proof.Gen.ReferenceIdeal.Read
import proofs.«153185_j85633057947962_2_alg».proof.Proof.AttentionBlock
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.AttentionBlock
open Idealize.ShloMosaic Idealize.ShloMosaic.ValueIdx Idealize.SL.Sem Idealize.ShloMosaic.StableHlo
open scoped BigOperators

/-- The query layer, read one operation at a time: contraction with the weights, bias, centring, scaling by `g / √(var + ε)`, shift, ReLU. -/
theorem layer_q (x0 : (⟨S8x1024x512, .f32⟩ : BufTy).Contents (Elt Ideal)) (x1 : (⟨S512x512, .f32⟩ : BufTy).Contents (Elt Ideal)) (x2 x3 x4 x5 x6 : (⟨S512, .f32⟩ : BufTy).Contents (Elt Ideal)) (b : Fin 8) (n : Fin 1024) (d : Fin 512) :
    val_main_v17 (F := Ideal) x0 x1 x2 x3 x4 x5 x6 (ix3 b n d)
      = (layerOf x1 x2 x3 x4 x5 x6).apply (fun c => x0 (ix3 b n c)) d := by
  have eb : idx_main_v1 (idx_main_v2 (ix3 b n d)) = ix1 d := funext fun a => match a with | ⟨0, _⟩ => rfl
  have em : idx_main_v4 (idx_main_v5 (ix3 b n d)) = ix1 d := funext fun a => match a with | ⟨0, _⟩ => rfl
  have es : idx_main_v11 (idx_main_v12 (ix3 b n d)) = ix1 d := funext fun a => match a with | ⟨0, _⟩ => rfl
  have et : idx_main_v14 (idx_main_v15 (ix3 b n d)) = ix1 d := funext fun a => match a with | ⟨0, _⟩ => rfl
  have el : ∀ k : Fin 512, lidx_main_v0 (ix3 b n d) k = ix3 b n k := fun k => funext fun a =>
    match a with | ⟨0, _⟩ => rfl | ⟨1, _⟩ => rfl | ⟨2, _⟩ => rfl
  have er : ∀ k : Fin 512, ridx_main_v0 (ix3 b n d) k = ix2 d k := fun k => funext fun a =>
    match a with | ⟨0, _⟩ => rfl | ⟨1, _⟩ => rfl
  simp only [val_main_v17_apply, val_main_v16_apply, val_main_v13_apply, val_main_v6_apply, val_main_v3_apply, val_main_v0_apply, val_main_v2_apply, val_main_v1_apply, val_main_v5_apply, val_main_v4_apply, val_main_v12_apply, val_main_v11_apply, val_main_v10_apply, val_main_v9_apply, val_main_v8_apply, val_main_v7_apply, val_main_v15_apply, val_main_v14_apply, val_main_cst_apply, val_main_call0_v0_apply, val_main_call0_cst_apply]
  rw [eb, em, es, et]
  simp only [el, er, Ideal.addf_def, Ideal.subf_def, Ideal.mulf_def, Ideal.maximumf_def, Ideal.hostDivf_def,
    Ideal.hostUnary_sqrt_def, Ideal.ofBits_def, Ideal.ofBits_zero_f32, Layer.apply, Layer.scale, layerOf]

/-- The key layer, read one operation at a time: contraction with the weights, bias, centring, scaling by `g / √(var + ε)`, shift, ReLU. -/
theorem layer_k (x0 : (⟨S8x1024x512, .f32⟩ : BufTy).Contents (Elt Ideal)) (x7 : (⟨S512x512, .f32⟩ : BufTy).Contents (Elt Ideal)) (x8 x9 x10 x11 x12 : (⟨S512, .f32⟩ : BufTy).Contents (Elt Ideal)) (b : Fin 8) (n : Fin 1024) (d : Fin 512) :
    val_main_v37 (F := Ideal) x0 x7 x8 x9 x10 x11 x12 (ix3 b n d)
      = (layerOf x7 x8 x9 x10 x11 x12).apply (fun c => x0 (ix3 b n c)) d := by
  have eb : idx_main_v21 (idx_main_v22 (ix3 b n d)) = ix1 d := funext fun a => match a with | ⟨0, _⟩ => rfl
  have em : idx_main_v24 (idx_main_v25 (ix3 b n d)) = ix1 d := funext fun a => match a with | ⟨0, _⟩ => rfl
  have es : idx_main_v31 (idx_main_v32 (ix3 b n d)) = ix1 d := funext fun a => match a with | ⟨0, _⟩ => rfl
  have et : idx_main_v34 (idx_main_v35 (ix3 b n d)) = ix1 d := funext fun a => match a with | ⟨0, _⟩ => rfl
  have el : ∀ k : Fin 512, lidx_main_v20 (ix3 b n d) k = ix3 b n k := fun k => funext fun a =>
    match a with | ⟨0, _⟩ => rfl | ⟨1, _⟩ => rfl | ⟨2, _⟩ => rfl
  have er : ∀ k : Fin 512, ridx_main_v20 (ix3 b n d) k = ix2 d k := fun k => funext fun a =>
    match a with | ⟨0, _⟩ => rfl | ⟨1, _⟩ => rfl
  simp only [val_main_v37_apply, val_main_v36_apply, val_main_v33_apply, val_main_v26_apply, val_main_v23_apply, val_main_v20_apply, val_main_v22_apply, val_main_v21_apply, val_main_v25_apply, val_main_v24_apply, val_main_v32_apply, val_main_v31_apply, val_main_v30_apply, val_main_v29_apply, val_main_v28_apply, val_main_v27_apply, val_main_v35_apply, val_main_v34_apply, val_main_cst_0_apply, val_main_call1_v0_apply, val_main_call1_cst_apply]
  rw [eb, em, es, et]
  simp only [el, er, Ideal.addf_def, Ideal.subf_def, Ideal.mulf_def, Ideal.maximumf_def, Ideal.hostDivf_def,
    Ideal.hostUnary_sqrt_def, Ideal.ofBits_def, Ideal.ofBits_zero_f32, Layer.apply, Layer.scale, layerOf]

/-- The value layer, read one operation at a time: contraction with the weights, bias, centring, scaling by `g / √(var + ε)`, shift, ReLU. -/
theorem layer_v (x0 : (⟨S8x1024x512, .f32⟩ : BufTy).Contents (Elt Ideal)) (x13 : (⟨S512x512, .f32⟩ : BufTy).Contents (Elt Ideal)) (x14 x15 x16 x17 x18 : (⟨S512, .f32⟩ : BufTy).Contents (Elt Ideal)) (b : Fin 8) (n : Fin 1024) (d : Fin 512) :
    val_main_v57 (F := Ideal) x0 x13 x14 x15 x16 x17 x18 (ix3 b n d)
      = (layerOf x13 x14 x15 x16 x17 x18).apply (fun c => x0 (ix3 b n c)) d := by
  have eb : idx_main_v41 (idx_main_v42 (ix3 b n d)) = ix1 d := funext fun a => match a with | ⟨0, _⟩ => rfl
  have em : idx_main_v44 (idx_main_v45 (ix3 b n d)) = ix1 d := funext fun a => match a with | ⟨0, _⟩ => rfl
  have es : idx_main_v51 (idx_main_v52 (ix3 b n d)) = ix1 d := funext fun a => match a with | ⟨0, _⟩ => rfl
  have et : idx_main_v54 (idx_main_v55 (ix3 b n d)) = ix1 d := funext fun a => match a with | ⟨0, _⟩ => rfl
  have el : ∀ k : Fin 512, lidx_main_v40 (ix3 b n d) k = ix3 b n k := fun k => funext fun a =>
    match a with | ⟨0, _⟩ => rfl | ⟨1, _⟩ => rfl | ⟨2, _⟩ => rfl
  have er : ∀ k : Fin 512, ridx_main_v40 (ix3 b n d) k = ix2 d k := fun k => funext fun a =>
    match a with | ⟨0, _⟩ => rfl | ⟨1, _⟩ => rfl
  simp only [val_main_v57_apply, val_main_v56_apply, val_main_v53_apply, val_main_v46_apply, val_main_v43_apply, val_main_v40_apply, val_main_v42_apply, val_main_v41_apply, val_main_v45_apply, val_main_v44_apply, val_main_v52_apply, val_main_v51_apply, val_main_v50_apply, val_main_v49_apply, val_main_v48_apply, val_main_v47_apply, val_main_v55_apply, val_main_v54_apply, val_main_cst_1_apply, val_main_call2_v0_apply, val_main_call2_cst_apply]
  rw [eb, em, es, et]
  simp only [el, er, Ideal.addf_def, Ideal.subf_def, Ideal.mulf_def, Ideal.maximumf_def, Ideal.hostDivf_def,
    Ideal.hostUnary_sqrt_def, Ideal.ofBits_def, Ideal.ofBits_zero_f32, Layer.apply, Layer.scale, layerOf]

/-- Splitting the channel axis into 8 heads of 64 lanes and moving the head axis forward: entry `(b, h, n, l)` reads
    channel `64 h + l` of token `n`. -/
theorem heads_q (x0 : (⟨S8x1024x512, .f32⟩ : BufTy).Contents (Elt Ideal)) (x1 : (⟨S512x512, .f32⟩ : BufTy).Contents (Elt Ideal)) (x2 x3 x4 x5 x6 : (⟨S512, .f32⟩ : BufTy).Contents (Elt Ideal)) (b h : Fin 8) (n : Fin 1024) (l : Fin 64) :
    val_main_v19 (F := Ideal) x0 x1 x2 x3 x4 x5 x6 (ix4 b h n l) = val_main_v17 (F := Ideal) x0 x1 x2 x3 x4 x5 x6 (ix3 b n (hd h l)) := by
  have hb := b.isLt; have hh := h.isLt; have hn := n.isLt; have hl := l.isLt
  have e : idx_main_v18 (idx_main_v19 (ix4 b h n l)) = ix3 b n (hd h l) := funext fun a =>
    match a with
    | ⟨0, _⟩ => Fin.ext (by
        show (((b.val * 1024 + n.val) * 8 + h.val) * 64 + l.val) / 524288 = b.val
        omega)
    | ⟨1, _⟩ => Fin.ext (by
        show (((b.val * 1024 + n.val) * 8 + h.val) * 64 + l.val) / 512 % 1024 = n.val
        omega)
    | ⟨2, _⟩ => Fin.ext (by
        show (((b.val * 1024 + n.val) * 8 + h.val) * 64 + l.val) % 512 = 64 * h.val + l.val
        omega)
  rw [val_main_v19_apply, val_main_v18_apply, e]

/-- Splitting the channel axis into 8 heads of 64 lanes and moving the head axis forward: entry `(b, h, n, l)` reads
    channel `64 h + l` of token `n`. -/
theorem heads_k (x0 : (⟨S8x1024x512, .f32⟩ : BufTy).Contents (Elt Ideal)) (x7 : (⟨S512x512, .f32⟩ : BufTy).Contents (Elt Ideal)) (x8 x9 x10 x11 x12 : (⟨S512, .f32⟩ : BufTy).Contents (Elt Ideal)) (b h : Fin 8) (n : Fin 1024) (l : Fin 64) :
    val_main_v39 (F := Ideal) x0 x7 x8 x9 x10 x11 x12 (ix4 b h n l) = val_main_v37 (F := Ideal) x0 x7 x8 x9 x10 x11 x12 (ix3 b n (hd h l)) := by
  have hb := b.isLt; have hh := h.isLt; have hn := n.isLt; have hl := l.isLt
  have e : idx_main_v38 (idx_main_v39 (ix4 b h n l)) = ix3 b n (hd h l) := funext fun a =>
    match a with
    | ⟨0, _⟩ => Fin.ext (by
        show (((b.val * 1024 + n.val) * 8 + h.val) * 64 + l.val) / 524288 = b.val
        omega)
    | ⟨1, _⟩ => Fin.ext (by
        show (((b.val * 1024 + n.val) * 8 + h.val) * 64 + l.val) / 512 % 1024 = n.val
        omega)
    | ⟨2, _⟩ => Fin.ext (by
        show (((b.val * 1024 + n.val) * 8 + h.val) * 64 + l.val) % 512 = 64 * h.val + l.val
        omega)
  rw [val_main_v39_apply, val_main_v38_apply, e]

/-- Splitting the channel axis into 8 heads of 64 lanes and moving the head axis forward: entry `(b, h, n, l)` reads
    channel `64 h + l` of token `n`. -/
theorem heads_v (x0 : (⟨S8x1024x512, .f32⟩ : BufTy).Contents (Elt Ideal)) (x13 : (⟨S512x512, .f32⟩ : BufTy).Contents (Elt Ideal)) (x14 x15 x16 x17 x18 : (⟨S512, .f32⟩ : BufTy).Contents (Elt Ideal)) (b h : Fin 8) (n : Fin 1024) (l : Fin 64) :
    val_main_v59 (F := Ideal) x0 x13 x14 x15 x16 x17 x18 (ix4 b h n l) = val_main_v57 (F := Ideal) x0 x13 x14 x15 x16 x17 x18 (ix3 b n (hd h l)) := by
  have hb := b.isLt; have hh := h.isLt; have hn := n.isLt; have hl := l.isLt
  have e : idx_main_v58 (idx_main_v59 (ix4 b h n l)) = ix3 b n (hd h l) := funext fun a =>
    match a with
    | ⟨0, _⟩ => Fin.ext (by
        show (((b.val * 1024 + n.val) * 8 + h.val) * 64 + l.val) / 524288 = b.val
        omega)
    | ⟨1, _⟩ => Fin.ext (by
        show (((b.val * 1024 + n.val) * 8 + h.val) * 64 + l.val) / 512 % 1024 = n.val
        omega)
    | ⟨2, _⟩ => Fin.ext (by
        show (((b.val * 1024 + n.val) * 8 + h.val) * 64 + l.val) % 512 = 64 * h.val + l.val
        omega)
  rw [val_main_v59_apply, val_main_v58_apply, e]

/-- The two contractions and the scale between them are the softmax-free attention of the three layer outputs. -/
theorem attn_eq (x0 : (⟨S8x1024x512, .f32⟩ : BufTy).Contents (Elt Ideal)) (x1 : (⟨S512x512, .f32⟩ : BufTy).Contents (Elt Ideal)) (x2 x3 x4 x5 x6 : (⟨S512, .f32⟩ : BufTy).Contents (Elt Ideal)) (x7 : (⟨S512x512, .f32⟩ : BufTy).Contents (Elt Ideal)) (x8 x9 x10 x11 x12 : (⟨S512, .f32⟩ : BufTy).Contents (Elt Ideal)) (x13 : (⟨S512x512, .f32⟩ : BufTy).Contents (Elt Ideal)) (x14 x15 x16 x17 x18 : (⟨S512, .f32⟩ : BufTy).Contents (Elt Ideal)) (b h : Fin 8) (n : Fin 1024) (l : Fin 64) :
    val_main_v63 (F := Ideal) x0 x1 x2 x3 x4 x5 x6 x7 x8 x9 x10 x11 x12 x13 x14 x15 x16 x17 x18 (ix4 b h n l)
      = attn (fun n' c' => val_main_v17 (F := Ideal) x0 x1 x2 x3 x4 x5 x6 (ix3 b n' c'))
          (fun n' c' => val_main_v37 (F := Ideal) x0 x7 x8 x9 x10 x11 x12 (ix3 b n' c'))
          (fun n' c' => val_main_v57 (F := Ideal) x0 x13 x14 x15 x16 x17 x18 (ix3 b n' c')) n h l := by
  rw [val_main_v63_apply]
  unfold attn
  refine Finset.sum_congr rfl fun m _ => ?_
  have e1 : lidx_main_v63 (ix4 b h n l) m = ix4 b h n m := funext fun a =>
    match a with | ⟨0, _⟩ => rfl | ⟨1, _⟩ => rfl | ⟨2, _⟩ => rfl | ⟨3, _⟩ => rfl
  have e2 : ridx_main_v63 (ix4 b h n l) m = ix4 b h m l := funext fun a =>
    match a with | ⟨0, _⟩ => rfl | ⟨1, _⟩ => rfl | ⟨2, _⟩ => rfl | ⟨3, _⟩ => rfl
  rw [e1, e2, val_main_v62_apply, val_main_v60_apply, val_main_v61_apply, val_main_cst_2_apply, heads_v]
  have e5 : ∀ k : Fin 64, val_main_v19 (F := Ideal) x0 x1 x2 x3 x4 x5 x6 (lidx_main_v60 (ix4 b h n m) k)
      * val_main_v39 (F := Ideal) x0 x7 x8 x9 x10 x11 x12 (ridx_main_v60 (ix4 b h n m) k)
      = val_main_v17 (F := Ideal) x0 x1 x2 x3 x4 x5 x6 (ix3 b n (hd h k))
      * val_main_v37 (F := Ideal) x0 x7 x8 x9 x10 x11 x12 (ix3 b m (hd h k)) := fun k => by
    have e3 : lidx_main_v60 (ix4 b h n m) k = ix4 b h n k := funext fun a =>
      match a with | ⟨0, _⟩ => rfl | ⟨1, _⟩ => rfl | ⟨2, _⟩ => rfl | ⟨3, _⟩ => rfl
    have e4 : ridx_main_v60 (ix4 b h n m) k = ix4 b h m k := funext fun a =>
      match a with | ⟨0, _⟩ => rfl | ⟨1, _⟩ => rfl | ⟨2, _⟩ => rfl | ⟨3, _⟩ => rfl
    rw [e3, e4, heads_q, heads_k]
  rw [Finset.sum_congr rfl fun k _ => e5 k]
  rfl

/-- Transposing back and merging head and lane into one channel axis: channel `c` reads head `c / 64`, lane `c % 64`;
    then the ReLU. -/
theorem relu_attn (x0 : (⟨S8x1024x512, .f32⟩ : BufTy).Contents (Elt Ideal)) (x1 : (⟨S512x512, .f32⟩ : BufTy).Contents (Elt Ideal)) (x2 x3 x4 x5 x6 : (⟨S512, .f32⟩ : BufTy).Contents (Elt Ideal)) (x7 : (⟨S512x512, .f32⟩ : BufTy).Contents (Elt Ideal)) (x8 x9 x10 x11 x12 : (⟨S512, .f32⟩ : BufTy).Contents (Elt Ideal)) (x13 : (⟨S512x512, .f32⟩ : BufTy).Contents (Elt Ideal)) (x14 x15 x16 x17 x18 : (⟨S512, .f32⟩ : BufTy).Contents (Elt Ideal)) (b : Fin 8) (n : Fin 1024) (c : Fin 512) :
    val_main_v66 (F := Ideal) x0 x1 x2 x3 x4 x5 x6 x7 x8 x9 x10 x11 x12 x13 x14 x15 x16 x17 x18 (ix3 b n c)
      = max (val_main_v63 (F := Ideal) x0 x1 x2 x3 x4 x5 x6 x7 x8 x9 x10 x11 x12 x13 x14 x15 x16 x17 x18 (ix4 b (headOf c) n (laneOf c))) 0 := by
  have hb := b.isLt; have hn := n.isLt; have hc := c.isLt
  have e : idx_main_v64 (idx_main_v65 (ix3 b n c)) = ix4 b (headOf c) n (laneOf c) := funext fun a =>
    match a with
    | ⟨0, _⟩ => Fin.ext (by
        show ((b.val * 1024 + n.val) * 512 + c.val) / 524288 = b.val
        omega)
    | ⟨1, _⟩ => Fin.ext (by
        show ((b.val * 1024 + n.val) * 512 + c.val) / 64 % 8 = c.val / 64
        omega)
    | ⟨2, _⟩ => Fin.ext (by
        show ((b.val * 1024 + n.val) * 512 + c.val) / 512 % 1024 = n.val
        omega)
    | ⟨3, _⟩ => Fin.ext (by
        show ((b.val * 1024 + n.val) * 512 + c.val) % 64 = c.val % 64
        omega)
  rw [val_main_v66_apply, val_main_v65_apply, val_main_v64_apply, val_main_call3_v0_apply, val_main_call3_cst_apply, e]
  simp only [Ideal.maximumf_def, Ideal.ofBits_def, Ideal.ofBits_zero_f32]

/-- The output layer, read one operation at a time: contraction with the weights, bias, centring, scaling by `g / √(var + ε)`, shift, ReLU. -/
theorem layer_p (x0 : (⟨S8x1024x512, .f32⟩ : BufTy).Contents (Elt Ideal)) (x1 : (⟨S512x512, .f32⟩ : BufTy).Contents (Elt Ideal)) (x2 x3 x4 x5 x6 : (⟨S512, .f32⟩ : BufTy).Contents (Elt Ideal)) (x7 : (⟨S512x512, .f32⟩ : BufTy).Contents (Elt Ideal)) (x8 x9 x10 x11 x12 : (⟨S512, .f32⟩ : BufTy).Contents (Elt Ideal)) (x13 : (⟨S512x512, .f32⟩ : BufTy).Contents (Elt Ideal)) (x14 x15 x16 x17 x18 : (⟨S512, .f32⟩ : BufTy).Contents (Elt Ideal)) (x19 : (⟨S512x512, .f32⟩ : BufTy).Contents (Elt Ideal)) (x20 x21 x22 x23 x24 : (⟨S512, .f32⟩ : BufTy).Contents (Elt Ideal)) (b : Fin 8) (n : Fin 1024) (d : Fin 512) :
    val_main_v84 (F := Ideal) x0 x1 x2 x3 x4 x5 x6 x7 x8 x9 x10 x11 x12 x13 x14 x15 x16 x17 x18 x19 x20 x21 x22 x23 x24 (ix3 b n d)
      = (layerOf x19 x20 x21 x22 x23 x24).apply (fun c => val_main_v66 (F := Ideal) x0 x1 x2 x3 x4 x5 x6 x7 x8 x9 x10 x11 x12 x13 x14 x15 x16 x17 x18 (ix3 b n c)) d := by
  have eb : idx_main_v68 (idx_main_v69 (ix3 b n d)) = ix1 d := funext fun a => match a with | ⟨0, _⟩ => rfl
  have em : idx_main_v71 (idx_main_v72 (ix3 b n d)) = ix1 d := funext fun a => match a with | ⟨0, _⟩ => rfl
  have es : idx_main_v78 (idx_main_v79 (ix3 b n d)) = ix1 d := funext fun a => match a with | ⟨0, _⟩ => rfl
  have et : idx_main_v81 (idx_main_v82 (ix3 b n d)) = ix1 d := funext fun a => match a with | ⟨0, _⟩ => rfl
  have el : ∀ k : Fin 512, lidx_main_v67 (ix3 b n d) k = ix3 b n k := fun k => funext fun a =>
    match a with | ⟨0, _⟩ => rfl | ⟨1, _⟩ => rfl | ⟨2, _⟩ => rfl
  have er : ∀ k : Fin 512, ridx_main_v67 (ix3 b n d) k = ix2 d k := fun k => funext fun a =>
    match a with | ⟨0, _⟩ => rfl | ⟨1, _⟩ => rfl
  simp only [val_main_v84_apply, val_main_v83_apply, val_main_v80_apply, val_main_v73_apply, val_main_v70_apply, val_main_v67_apply, val_main_v69_apply, val_main_v68_apply, val_main_v72_apply, val_main_v71_apply, val_main_v79_apply, val_main_v78_apply, val_main_v77_apply, val_main_v76_apply, val_main_v75_apply, val_main_v74_apply, val_main_v82_apply, val_main_v81_apply, val_main_cst_3_apply, val_main_call4_v0_apply, val_main_call4_cst_apply]
  rw [eb, em, es, et]
  simp only [el, er, Ideal.addf_def, Ideal.subf_def, Ideal.mulf_def, Ideal.maximumf_def, Ideal.hostDivf_def,
    Ideal.hostUnary_sqrt_def, Ideal.ofBits_def, Ideal.ofBits_zero_f32, Layer.apply, Layer.scale, layerOf]

/-- The reference program's result is the attention block of its 25 arguments, index by index. -/
theorem reference_eq_result (x0 : (⟨S8x1024x512, .f32⟩ : BufTy).Contents (Elt Ideal)) (x1 : (⟨S512x512, .f32⟩ : BufTy).Contents (Elt Ideal)) (x2 x3 x4 x5 x6 : (⟨S512, .f32⟩ : BufTy).Contents (Elt Ideal)) (x7 : (⟨S512x512, .f32⟩ : BufTy).Contents (Elt Ideal)) (x8 x9 x10 x11 x12 : (⟨S512, .f32⟩ : BufTy).Contents (Elt Ideal)) (x13 : (⟨S512x512, .f32⟩ : BufTy).Contents (Elt Ideal)) (x14 x15 x16 x17 x18 : (⟨S512, .f32⟩ : BufTy).Contents (Elt Ideal)) (x19 : (⟨S512x512, .f32⟩ : BufTy).Contents (Elt Ideal)) (x20 x21 x22 x23 x24 : (⟨S512, .f32⟩ : BufTy).Contents (Elt Ideal)) :
    Cert.ReferenceIdeal.Read.val_main_v84 (F := Ideal) x0 x1 x2 x3 x4 x5 x6 x7 x8 x9 x10 x11 x12 x13 x14 x15 x16 x17 x18 x19 x20 x21 x22 x23 x24
      = Cert.AttentionBlock.result x0 x1 x2 x3 x4 x5 x6 x7 x8 x9 x10 x11 x12 x13 x14 x15 x16 x17 x18 x19 x20 x21 x22 x23 x24 := by
  refine funext fun (i : S8x1024x512.Idx) => ?_
  obtain ⟨b, n, j, rfl⟩ : ∃ b n j, i = ix3 b n j := ⟨i 0, i 1, i 2, eq_ix3 i⟩
  show val_main_v84 (F := Ideal) x0 x1 x2 x3 x4 x5 x6 x7 x8 x9 x10 x11 x12 x13 x14 x15 x16 x17 x18 x19 x20 x21 x22 x23 x24 (ix3 b n j)
    = block (layerOf x1 x2 x3 x4 x5 x6) (layerOf x7 x8 x9 x10 x11 x12) (layerOf x13 x14 x15 x16 x17 x18)
        (layerOf x19 x20 x21 x22 x23 x24) (batchOf x0 b) n j
  rw [layer_p]
  unfold block
  refine congrArg (fun X => (layerOf x19 x20 x21 x22 x23 x24).apply X j) (funext fun c => ?_)
  rw [relu_attn, attn_eq]
  simp only [layer_q, layer_k, layer_v]
  rfl

end Cert.ReferenceIdeal.RefValue

end
-- ==== Proof.KernelBlocks.lean ====
/-
  The windows of the kernel's one launch, read as blocks of their arrays.

  The grid has eight points, one per batch element.  At point `t` the input window stages rows `[t, t+1)` of the
  `8 × 1024 × 512` input, i.e. batch element `t` whole, and the output window writes back the same rows of the result.
  The eight other windows (four prepared matrices, four prepared biases) have block index zero at every point and a
  block as large as their array: their block IS the array.
-/
import proofs.«153185_j85633057947962_2_alg».proof.Proof.KernelIdealValueP
import Idealize.ShloMosaic.Lib.ValueIdx

noncomputable section

namespace Cert.KernelIdeal.Blocks

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The input's and the output's index maps send point `t` to block `(t, 0, 0)` (decided over the eight points). -/
theorem idx_rows : ∀ t : Fin cfg0.N,
    win0_0.index t (0 : Fin 3) = t.val ∧ win0_0.index t (1 : Fin 3) = 0 ∧ win0_0.index t (2 : Fin 3) = 0
    ∧ win0_9.index t (0 : Fin 3) = t.val ∧ win0_9.index t (1 : Fin 3) = 0 ∧ win0_9.index t (2 : Fin 3) = 0 :=
  (by decide +kernel : ∀ t : Fin grid0.N, _)

/-- The input block at point `t` is batch element `t` of the input as launched. -/
theorem input_block (c : Dev nD) (t : Fin cfg0.N) (b : Fin 8) (hb : b.val = t.val) (u : Fin 1) (n : Fin 1024) (k : Fin 512) :
    (iblk m c 0 t : Vec Ideal S1x1024x512 .f32) (ix3 u n k)
      = (m ((c : Thread nD τ).loc main_arg0) : S8x1024x512.Idx → EReal) (ix3 b n k) := by
  obtain ⟨e0, e1, e2, -, -, -⟩ := idx_rows t
  unfold iblk
  rw [View.read_apply]
  show V m c main_arg0 _ = _
  rw [V_main_arg0]
  refine congrArg (m ((c : Thread nD τ).loc main_arg0) : S8x1024x512.Idx → EReal) (funext fun a => Fin.ext ?_)
  have hu : u.val = 0 := by omega
  match a with
  | ⟨0, _⟩ => show win0_0.index t (0 : Fin 3) * 1 + 1 * u.val = b.val; rw [e0, hb, hu]; omega
  | ⟨1, _⟩ => show win0_0.index t (1 : Fin 3) * 1024 + 1 * n.val = n.val; rw [e1]; omega
  | ⟨2, _⟩ => show win0_0.index t (2 : Fin 3) * 512 + 1 * k.val = k.val; rw [e2]; omega

/-- The query layer's prepared matrix and bias have block index zero at every point (decided over the eight points). -/
theorem idx_q : ∀ t : Fin cfg0.N,
    win0_1.index t (0 : Fin 2) = 0 ∧ win0_1.index t (1 : Fin 2) = 0 ∧ win0_2.index t (0 : Fin 1) = 0 :=
  (by decide +kernel : ∀ t : Fin grid0.N, _)

/-- The query layer's matrix block is the whole matrix the region finds. -/
theorem matrix_q_block (c : Dev nD) (t : Fin cfg0.N) (a b : Fin 512) :
    (iblk m c 1 t : Vec Ideal S512x512 .bf16) (ix2 a b) = (V m c main_v13 : S512x512.Idx → EReal) (ix2 a b) := by
  obtain ⟨e0, e1, -⟩ := idx_q t
  unfold iblk
  rw [View.read_apply]
  show V m c main_v13 _ = _
  refine congrArg (V m c main_v13 : S512x512.Idx → EReal) (funext fun x => Fin.ext ?_)
  match x with
  | ⟨0, _⟩ => show win0_1.index t (0 : Fin 2) * 512 + 1 * a.val = a.val; rw [e0]; omega
  | ⟨1, _⟩ => show win0_1.index t (1 : Fin 2) * 512 + 1 * b.val = b.val; rw [e1]; omega

/-- The query layer's bias block is the whole bias vector the region finds. -/
theorem bias_q_block (c : Dev nD) (t : Fin cfg0.N) (d : Fin 512) :
    (iblk m c 2 t : Vec Ideal S512 .f32) (ix1 d) = (V m c main_v11 : S512.Idx → EReal) (ix1 d) := by
  obtain ⟨-, -, e0⟩ := idx_q t
  unfold iblk
  rw [View.read_apply]
  show V m c main_v11 _ = _
  refine congrArg (V m c main_v11 : S512.Idx → EReal) (funext fun x => Fin.ext ?_)
  match x with
  | ⟨0, _⟩ => show win0_2.index t (0 : Fin 1) * 512 + 1 * d.val = d.val; rw [e0]; omega

/-- The key layer's prepared matrix and bias have block index zero at every point (decided over the eight points). -/
theorem idx_k : ∀ t : Fin cfg0.N,
    win0_3.index t (0 : Fin 2) = 0 ∧ win0_3.index t (1 : Fin 2) = 0 ∧ win0_4.index t (0 : Fin 1) = 0 :=
  (by decide +kernel : ∀ t : Fin grid0.N, _)

/-- The key layer's matrix block is the whole matrix the region finds. -/
theorem matrix_k_block (c : Dev nD) (t : Fin cfg0.N) (a b : Fin 512) :
    (iblk m c 3 t : Vec Ideal S512x512 .bf16) (ix2 a b) = (V m c main_v27 : S512x512.Idx → EReal) (ix2 a b) := by
  obtain ⟨e0, e1, -⟩ := idx_k t
  unfold iblk
  rw [View.read_apply]
  show V m c main_v27 _ = _
  refine congrArg (V m c main_v27 : S512x512.Idx → EReal) (funext fun x => Fin.ext ?_)
  match x with
  | ⟨0, _⟩ => show win0_3.index t (0 : Fin 2) * 512 + 1 * a.val = a.val; rw [e0]; omega
  | ⟨1, _⟩ => show win0_3.index t (1 : Fin 2) * 512 + 1 * b.val = b.val; rw [e1]; omega

/-- The key layer's bias block is the whole bias vector the region finds. -/
theorem bias_k_block (c : Dev nD) (t : Fin cfg0.N) (d : Fin 512) :
    (iblk m c 4 t : Vec Ideal S512 .f32) (ix1 d) = (V m c main_v25 : S512.Idx → EReal) (ix1 d) := by
  obtain ⟨-, -, e0⟩ := idx_k t
  unfold iblk
  rw [View.read_apply]
  show V m c main_v25 _ = _
  refine congrArg (V m c main_v25 : S512.Idx → EReal) (funext fun x => Fin.ext ?_)
  match x with
  | ⟨0, _⟩ => show win0_4.index t (0 : Fin 1) * 512 + 1 * d.val = d.val; rw [e0]; omega

/-- The value layer's prepared matrix and bias have block index zero at every point (decided over the eight points). -/
theorem idx_v : ∀ t : Fin cfg0.N,
    win0_5.index t (0 : Fin 2) = 0 ∧ win0_5.index t (1 : Fin 2) = 0 ∧ win0_6.index t (0 : Fin 1) = 0 :=
  (by decide +kernel : ∀ t : Fin grid0.N, _)

/-- The value layer's matrix block is the whole matrix the region finds. -/
theorem matrix_v_block (c : Dev nD) (t : Fin cfg0.N) (a b : Fin 512) :
    (iblk m c 5 t : Vec Ideal S512x512 .bf16) (ix2 a b) = (V m c main_v41 : S512x512.Idx → EReal) (ix2 a b) := by
  obtain ⟨e0, e1, -⟩ := idx_v t
  unfold iblk
  rw [View.read_apply]
  show V m c main_v41 _ = _
  refine congrArg (V m c main_v41 : S512x512.Idx → EReal) (funext fun x => Fin.ext ?_)
  match x with
  | ⟨0, _⟩ => show win0_5.index t (0 : Fin 2) * 512 + 1 * a.val = a.val; rw [e0]; omega
  | ⟨1, _⟩ => show win0_5.index t (1 : Fin 2) * 512 + 1 * b.val = b.val; rw [e1]; omega

/-- The value layer's bias block is the whole bias vector the region finds. -/
theorem bias_v_block (c : Dev nD) (t : Fin cfg0.N) (d : Fin 512) :
    (iblk m c 6 t : Vec Ideal S512 .f32) (ix1 d) = (V m c main_v39 : S512.Idx → EReal) (ix1 d) := by
  obtain ⟨-, -, e0⟩ := idx_v t
  unfold iblk
  rw [View.read_apply]
  show V m c main_v39 _ = _
  refine congrArg (V m c main_v39 : S512.Idx → EReal) (funext fun x => Fin.ext ?_)
  match x with
  | ⟨0, _⟩ => show win0_6.index t (0 : Fin 1) * 512 + 1 * d.val = d.val; rw [e0]; omega

/-- The output layer's prepared matrix and bias have block index zero at every point (decided over the eight points). -/
theorem idx_p : ∀ t : Fin cfg0.N,
    win0_7.index t (0 : Fin 2) = 0 ∧ win0_7.index t (1 : Fin 2) = 0 ∧ win0_8.index t (0 : Fin 1) = 0 :=
  (by decide +kernel : ∀ t : Fin grid0.N, _)

/-- The output layer's matrix block is the whole matrix the region finds. -/
theorem matrix_p_block (c : Dev nD) (t : Fin cfg0.N) (a b : Fin 512) :
    (iblk m c 7 t : Vec Ideal S512x512 .bf16) (ix2 a b) = (V m c main_v55 : S512x512.Idx → EReal) (ix2 a b) := by
  obtain ⟨e0, e1, -⟩ := idx_p t
  unfold iblk
  rw [View.read_apply]
  show V m c main_v55 _ = _
  refine congrArg (V m c main_v55 : S512x512.Idx → EReal) (funext fun x => Fin.ext ?_)
  match x with
  | ⟨0, _⟩ => show win0_7.index t (0 : Fin 2) * 512 + 1 * a.val = a.val; rw [e0]; omega
  | ⟨1, _⟩ => show win0_7.index t (1 : Fin 2) * 512 + 1 * b.val = b.val; rw [e1]; omega

/-- The output layer's bias block is the whole bias vector the region finds. -/
theorem bias_p_block (c : Dev nD) (t : Fin cfg0.N) (d : Fin 512) :
    (iblk m c 8 t : Vec Ideal S512 .f32) (ix1 d) = (V m c main_v53 : S512.Idx → EReal) (ix1 d) := by
  obtain ⟨-, -, e0⟩ := idx_p t
  unfold iblk
  rw [View.read_apply]
  show V m c main_v53 _ = _
  refine congrArg (V m c main_v53 : S512.Idx → EReal) (funext fun x => Fin.ext ?_)
  match x with
  | ⟨0, _⟩ => show win0_8.index t (0 : Fin 1) * 512 + 1 * d.val = d.val; rw [e0]; omega

end Cert.KernelIdeal.Blocks

end
-- ==== Proof.HeadLayout.lean ====
/-
  Re-layings of a token × channel matrix into heads, read at an index.

  A matrix `x : 1024 × 512` reshaped to `1024 × 8 × 64` puts channel `64 h + l` at `(n, h, l)` (both are position
  `512 n + 64 h + l` in row-major order); reshaped back, channel `c` comes from head `c / 64`, lane `c % 64`.
  A transposition of three axes only permutes the coordinates.
-/
import Idealize.ShloMosaic.Lib.Pipeline.Value
import Idealize.ShloMosaic.Lib.ValueIdx
import Idealize.ShloMosaic.Lib.ValueLayout
import proofs.«153185_j85633057947962_2_alg».proof.Proof.AttentionBlock

noncomputable section

namespace Cert.AttentionBlock.Layout

open Idealize.ShloMosaic Idealize.ShloMosaic.ValueIdx Cert.AttentionBlock

variable {α : Type}

/-- Splitting the channels into heads: entry `(n, h, l)` is channel `64 h + l` of token `n`. -/
theorem split_heads_apply (x : (⟨2, ![1024, 512]⟩ : Shape).Idx → α)
    (hc : (⟨2, ![1024, 512]⟩ : Shape).ShapeCasts ⟨3, ![1024, 8, 64]⟩) (n : Fin 1024) (h : Fin 8) (l : Fin 64) :
    shapeCast ⟨3, ![1024, 8, 64]⟩ x hc (ix3 n h l) = x (ix2 n (hd h l)) :=
  shapeCast_apply x hc _ _ (by
    rw [Shape.rowMajor_val_three, Shape.rowMajor_val_two]
    show n.val * 512 + (64 * h.val + l.val) = (n.val * 8 + h.val) * 64 + l.val
    omega)

/-- Merging the heads back into channels: channel `c` of token `n` is lane `c % 64` of head `c / 64`. -/
theorem merge_heads_apply (x : (⟨3, ![1024, 8, 64]⟩ : Shape).Idx → α)
    (hc : (⟨3, ![1024, 8, 64]⟩ : Shape).ShapeCasts ⟨2, ![1024, 512]⟩) (n : Fin 1024) (c : Fin 512) :
    shapeCast ⟨2, ![1024, 512]⟩ x hc (ix2 n c) = x (ix3 n (headOf c) (laneOf c)) :=
  shapeCast_apply x hc _ _ (by
    rw [Shape.rowMajor_val_three, Shape.rowMajor_val_two]
    show (n.val * 8 + c.val / 64) * 64 + c.val % 64 = n.val * 512 + c.val
    omega)

/-- Tokens and heads exchanged: `[1024, 8, 64] → [8, 1024, 64]`. -/
theorem heads_first_apply (x : (⟨3, ![1024, 8, 64]⟩ : Shape).Idx → α)
    (ht : (⟨3, ![1024, 8, 64]⟩ : Shape).Transposes [1, 0, 2] ⟨3, ![8, 1024, 64]⟩) (h : Fin 8) (n : Fin 1024) (l : Fin 64) :
    transpose ⟨3, ![8, 1024, 64]⟩ [1, 0, 2] x ht (ix3 h n l) = x (ix3 n h l) :=
  transpose_apply _ x ht _ _ fun c => match c with | ⟨0, _⟩ => rfl | ⟨1, _⟩ => rfl | ⟨2, _⟩ => rfl

/-- Heads first and tokens last: `[1024, 8, 64] → [8, 64, 1024]`. -/
theorem heads_first_tokens_last_apply (x : (⟨3, ![1024, 8, 64]⟩ : Shape).Idx → α)
    (ht : (⟨3, ![1024, 8, 64]⟩ : Shape).Transposes [1, 2, 0] ⟨3, ![8, 64, 1024]⟩) (h : Fin 8) (l : Fin 64) (n : Fin 1024) :
    transpose ⟨3, ![8, 64, 1024]⟩ [1, 2, 0] x ht (ix3 h l n) = x (ix3 n h l) :=
  transpose_apply _ x ht _ _ fun c => match c with | ⟨0, _⟩ => rfl | ⟨1, _⟩ => rfl | ⟨2, _⟩ => rfl

/-- Heads and tokens exchanged back: `[8, 1024, 64] → [1024, 8, 64]`. -/
theorem tokens_first_apply (x : (⟨3, ![8, 1024, 64]⟩ : Shape).Idx → α)
    (ht : (⟨3, ![8, 1024, 64]⟩ : Shape).Transposes [1, 0, 2] ⟨3, ![1024, 8, 64]⟩) (n : Fin 1024) (h : Fin 8) (l : Fin 64) :
    transpose ⟨3, ![1024, 8, 64]⟩ [1, 0, 2] x ht (ix3 n h l) = x (ix3 h n l) :=
  transpose_apply _ x ht _ _ fun c => match c with | ⟨0, _⟩ => rfl | ⟨1, _⟩ => rfl | ⟨2, _⟩ => rfl

end Cert.AttentionBlock.Layout

end
-- ==== Proof.KernelDots.lean ====
/-
  The kernel's three matrix products, read at an index, at the ideal instance (floats are extended reals).

  A matrix product into a zero accumulator is, at the ideal instance, the sum over the contraction index of the
  products of the two factors' entries at the operand indices the dimension numbers assign. For each of the
  kernel's three dimension-number records those operand indices are computed coordinate by coordinate: a batch
  axis and a free axis read the output index, the contracted axis reads the contraction index. The contraction
  has one axis, so the sum over contraction indices is re-indexed as a sum over that axis's coordinates.
-/
import proofs.«153185_j85633057947962_2_alg».proof.Proof.Gen.KernelIdeal
import Idealize.ShloMosaic.PureOps.Ideal.Laws
import Idealize.ShloMosaic.Lib.ValueIdx

namespace Cert.KernelIdeal.Dots

open Cert.KernelIdeal Cert.KernelIdeal.Gen Idealize.ShloMosaic Idealize.ShloMosaic.ValueIdx

/-! ## Rows × weights: no batch axis; the left factor contracts its axis 1, the right its axis 0 -/

theorem rows_weights_lhs_0 (j : S1024x512.Idx) (q : dot_S1024x512_S512x512_S1024x512_1_0_0_1_n_n.contr.Idx) :
    (dot_S1024x512_S512x512_S1024x512_1_0_0_1_n_n.lhsIdx j q 0).val = (j 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
theorem rows_weights_lhs_1 (j : S1024x512.Idx) (q : dot_S1024x512_S512x512_S1024x512_1_0_0_1_n_n.contr.Idx) :
    (dot_S1024x512_S512x512_S1024x512_1_0_0_1_n_n.lhsIdx j q 1).val = (q ⟨0, by decide⟩).val :=
  dot_S1024x512_S512x512_S1024x512_1_0_0_1_n_n.lhsIdx_val_of_single rfl j q
theorem rows_weights_rhs_0 (j : S1024x512.Idx) (q : dot_S1024x512_S512x512_S1024x512_1_0_0_1_n_n.contr.Idx) :
    (dot_S1024x512_S512x512_S1024x512_1_0_0_1_n_n.rhsIdx j q 0).val = (q ⟨0, by decide⟩).val :=
  dot_S1024x512_S512x512_S1024x512_1_0_0_1_n_n.rhsIdx_val_of_single rfl j q
theorem rows_weights_rhs_1 (j : S1024x512.Idx) (q : dot_S1024x512_S512x512_S1024x512_1_0_0_1_n_n.contr.Idx) :
    (dot_S1024x512_S512x512_S1024x512_1_0_0_1_n_n.rhsIdx j q 1).val = (j 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- The projection product: entry (n, d) of rows × weights is the sum over the contracted axis c of
    (row n, column c of the left factor) times (row c, column d of the right factor). -/
theorem matmul_plain_apply (lhs : FVec Ideal S1024x512 .bf16) (rhs : FVec Ideal S512x512 .bf16) (n : Fin 1024) (d : Fin 512) :
    matmul (F := Ideal) dot_S1024x512_S512x512_S1024x512_1_0_0_1_n_n none lhs rhs (constant (F := Ideal) S1024x512 .f32 0x00000000#32) (ix2 n d)
      = ∑ c : Fin 512, lhs (ix2 n c) * rhs (ix2 c d) := by
  simp only [matmul]
  rw [Ideal.matmul_constant_zero_apply, ← Equiv.sum_comp (contrEquiv1 dot_S1024x512_S512x512_S1024x512_1_0_0_1_n_n 512 rfl rfl).symm]
  refine Finset.sum_congr rfl fun c _ => ?_
  have hk := contrEquiv1_symm_val dot_S1024x512_S512x512_S1024x512_1_0_0_1_n_n 512 rfl rfl c
  have el : dot_S1024x512_S512x512_S1024x512_1_0_0_1_n_n.lhsIdx (ix2 n d) ((contrEquiv1 dot_S1024x512_S512x512_S1024x512_1_0_0_1_n_n 512 rfl rfl).symm c) = ix2 n c :=
    funext fun ax => Fin.ext (by
    match ax with
    | ⟨0, _⟩ => exact rows_weights_lhs_0 _ _
    | ⟨1, _⟩ => exact (rows_weights_lhs_1 _ _).trans hk)
  have er : dot_S1024x512_S512x512_S1024x512_1_0_0_1_n_n.rhsIdx (ix2 n d) ((contrEquiv1 dot_S1024x512_S512x512_S1024x512_1_0_0_1_n_n 512 rfl rfl).symm c) = ix2 c d :=
    funext fun ax => Fin.ext (by
    match ax with
    | ⟨0, _⟩ => exact (rows_weights_rhs_0 _ _).trans hk
    | ⟨1, _⟩ => exact rows_weights_rhs_1 _ _)
  rw [el, er]

/-! ## Keys × values: batch axis 0 on both sides; the left factor contracts its axis 2, the right its axis 1 -/

theorem keys_values_lhs_0 (j : S8x64x64.Idx) (q : dot_S8x64x1024_S8x1024x64_S8x64x64_2_1_1_2_0_0.contr.Idx) :
    (dot_S8x64x1024_S8x1024x64_S8x64x64_2_1_1_2_0_0.lhsIdx j q 0).val = (j 0).val := by
  unfold DotDims.lhsIdx
  rw [dif_pos (show (0 : Fin S8x64x1024.rank) ∈ dot_S8x64x1024_S8x1024x64_S8x64x64_2_1_1_2_0_0.lhsBatch by decide)]
  rfl
theorem keys_values_lhs_1 (j : S8x64x64.Idx) (q : dot_S8x64x1024_S8x1024x64_S8x64x64_2_1_1_2_0_0.contr.Idx) :
    (dot_S8x64x1024_S8x1024x64_S8x64x64_2_1_1_2_0_0.lhsIdx j q 1).val = (j 1).val := by
  unfold DotDims.lhsIdx
  rw [dif_neg (show ¬(1 : Fin S8x64x1024.rank) ∈ dot_S8x64x1024_S8x1024x64_S8x64x64_2_1_1_2_0_0.lhsBatch by decide),
    dif_pos (show (1 : Fin S8x64x1024.rank) ∈ dot_S8x64x1024_S8x1024x64_S8x64x64_2_1_1_2_0_0.lhsNonContracting by decide)]
  rfl
theorem keys_values_lhs_2 (j : S8x64x64.Idx) (q : dot_S8x64x1024_S8x1024x64_S8x64x64_2_1_1_2_0_0.contr.Idx) :
    (dot_S8x64x1024_S8x1024x64_S8x64x64_2_1_1_2_0_0.lhsIdx j q 2).val = (q ⟨0, by decide⟩).val :=
  dot_S8x64x1024_S8x1024x64_S8x64x64_2_1_1_2_0_0.lhsIdx_val_of_single rfl j q
theorem keys_values_rhs_0 (j : S8x64x64.Idx) (q : dot_S8x64x1024_S8x1024x64_S8x64x64_2_1_1_2_0_0.contr.Idx) :
    (dot_S8x64x1024_S8x1024x64_S8x64x64_2_1_1_2_0_0.rhsIdx j q 0).val = (j 0).val := by
  unfold DotDims.rhsIdx
  rw [dif_pos (show (0 : Fin S8x1024x64.rank) ∈ dot_S8x64x1024_S8x1024x64_S8x64x64_2_1_1_2_0_0.rhsBatch by decide)]
  rfl
theorem keys_values_rhs_1 (j : S8x64x64.Idx) (q : dot_S8x64x1024_S8x1024x64_S8x64x64_2_1_1_2_0_0.contr.Idx) :
    (dot_S8x64x1024_S8x1024x64_S8x64x64_2_1_1_2_0_0.rhsIdx j q 1).val = (q ⟨0, by decide⟩).val :=
  dot_S8x64x1024_S8x1024x64_S8x64x64_2_1_1_2_0_0.rhsIdx_val_of_single rfl j q
theorem keys_values_rhs_2 (j : S8x64x64.Idx) (q : dot_S8x64x1024_S8x1024x64_S8x64x64_2_1_1_2_0_0.contr.Idx) :
    (dot_S8x64x1024_S8x1024x64_S8x64x64_2_1_1_2_0_0.rhsIdx j q 2).val = (j 2).val := by
  unfold DotDims.rhsIdx
  rw [dif_neg (show ¬(2 : Fin S8x1024x64.rank) ∈ dot_S8x64x1024_S8x1024x64_S8x64x64_2_1_1_2_0_0.rhsBatch by decide),
    dif_pos (show (2 : Fin S8x1024x64.rank) ∈ dot_S8x64x1024_S8x1024x64_S8x64x64_2_1_1_2_0_0.rhsNonContracting by decide)]
  rfl

/-- The keys-by-values product, one per head h: entry (h, a, b) is the sum over the sequence position n of
    (head h, feature a, position n of the left factor) times (head h, position n, feature b of the right factor). -/
theorem matmul_keys_values_apply (lhs : FVec Ideal S8x64x1024 .f32) (rhs : FVec Ideal S8x1024x64 .f32) (h : Fin 8) (a b : Fin 64) :
    matmul (F := Ideal) dot_S8x64x1024_S8x1024x64_S8x64x64_2_1_1_2_0_0 none lhs rhs (constant (F := Ideal) S8x64x64 .f32 0x00000000#32) (ix3 h a b)
      = ∑ n : Fin 1024, lhs (ix3 h a n) * rhs (ix3 h n b) := by
  simp only [matmul]
  rw [Ideal.matmul_constant_zero_apply, ← Equiv.sum_comp (contrEquiv1 dot_S8x64x1024_S8x1024x64_S8x64x64_2_1_1_2_0_0 1024 rfl rfl).symm]
  refine Finset.sum_congr rfl fun n _ => ?_
  have hk := contrEquiv1_symm_val dot_S8x64x1024_S8x1024x64_S8x64x64_2_1_1_2_0_0 1024 rfl rfl n
  have el : dot_S8x64x1024_S8x1024x64_S8x64x64_2_1_1_2_0_0.lhsIdx (ix3 h a b) ((contrEquiv1 dot_S8x64x1024_S8x1024x64_S8x64x64_2_1_1_2_0_0 1024 rfl rfl).symm n) = ix3 h a n :=
    funext fun ax => Fin.ext (by
    match ax with
    | ⟨0, _⟩ => exact keys_values_lhs_0 _ _
    | ⟨1, _⟩ => exact keys_values_lhs_1 _ _
    | ⟨2, _⟩ => exact (keys_values_lhs_2 _ _).trans hk)
  have er : dot_S8x64x1024_S8x1024x64_S8x64x64_2_1_1_2_0_0.rhsIdx (ix3 h a b) ((contrEquiv1 dot_S8x64x1024_S8x1024x64_S8x64x64_2_1_1_2_0_0 1024 rfl rfl).symm n) = ix3 h n b :=
    funext fun ax => Fin.ext (by
    match ax with
    | ⟨0, _⟩ => exact keys_values_rhs_0 _ _
    | ⟨1, _⟩ => exact (keys_values_rhs_1 _ _).trans hk
    | ⟨2, _⟩ => exact keys_values_rhs_2 _ _)
  rw [el, er]

/-! ## Queries × context: batch axis 0 on both sides; the left factor contracts its axis 2, the right its axis 1 -/

theorem queries_context_lhs_0 (j : S8x1024x64.Idx) (q : dot_S8x1024x64_S8x64x64_S8x1024x64_2_1_1_2_0_0.contr.Idx) :
    (dot_S8x1024x64_S8x64x64_S8x1024x64_2_1_1_2_0_0.lhsIdx j q 0).val = (j 0).val := by
  unfold DotDims.lhsIdx
  rw [dif_pos (show (0 : Fin S8x1024x64.rank) ∈ dot_S8x1024x64_S8x64x64_S8x1024x64_2_1_1_2_0_0.lhsBatch by decide)]
  rfl
theorem queries_context_lhs_1 (j : S8x1024x64.Idx) (q : dot_S8x1024x64_S8x64x64_S8x1024x64_2_1_1_2_0_0.contr.Idx) :
    (dot_S8x1024x64_S8x64x64_S8x1024x64_2_1_1_2_0_0.lhsIdx j q 1).val = (j 1).val := by
  unfold DotDims.lhsIdx
  rw [dif_neg (show ¬(1 : Fin S8x1024x64.rank) ∈ dot_S8x1024x64_S8x64x64_S8x1024x64_2_1_1_2_0_0.lhsBatch by decide),
    dif_pos (show (1 : Fin S8x1024x64.rank) ∈ dot_S8x1024x64_S8x64x64_S8x1024x64_2_1_1_2_0_0.lhsNonContracting by decide)]
  rfl
theorem queries_context_lhs_2 (j : S8x1024x64.Idx) (q : dot_S8x1024x64_S8x64x64_S8x1024x64_2_1_1_2_0_0.contr.Idx) :
    (dot_S8x1024x64_S8x64x64_S8x1024x64_2_1_1_2_0_0.lhsIdx j q 2).val = (q ⟨0, by decide⟩).val :=
  dot_S8x1024x64_S8x64x64_S8x1024x64_2_1_1_2_0_0.lhsIdx_val_of_single rfl j q
theorem queries_context_rhs_0 (j : S8x1024x64.Idx) (q : dot_S8x1024x64_S8x64x64_S8x1024x64_2_1_1_2_0_0.contr.Idx) :
    (dot_S8x1024x64_S8x64x64_S8x1024x64_2_1_1_2_0_0.rhsIdx j q 0).val = (j 0).val := by
  unfold DotDims.rhsIdx
  rw [dif_pos (show (0 : Fin S8x64x64.rank) ∈ dot_S8x1024x64_S8x64x64_S8x1024x64_2_1_1_2_0_0.rhsBatch by decide)]
  rfl
theorem queries_context_rhs_1 (j : S8x1024x64.Idx) (q : dot_S8x1024x64_S8x64x64_S8x1024x64_2_1_1_2_0_0.contr.Idx) :
    (dot_S8x1024x64_S8x64x64_S8x1024x64_2_1_1_2_0_0.rhsIdx j q 1).val = (q ⟨0, by decide⟩).val :=
  dot_S8x1024x64_S8x64x64_S8x1024x64_2_1_1_2_0_0.rhsIdx_val_of_single rfl j q
theorem queries_context_rhs_2 (j : S8x1024x64.Idx) (q : dot_S8x1024x64_S8x64x64_S8x1024x64_2_1_1_2_0_0.contr.Idx) :
    (dot_S8x1024x64_S8x64x64_S8x1024x64_2_1_1_2_0_0.rhsIdx j q 2).val = (j 2).val := by
  unfold DotDims.rhsIdx
  rw [dif_neg (show ¬(2 : Fin S8x64x64.rank) ∈ dot_S8x1024x64_S8x64x64_S8x1024x64_2_1_1_2_0_0.rhsBatch by decide),
    dif_pos (show (2 : Fin S8x64x64.rank) ∈ dot_S8x1024x64_S8x64x64_S8x1024x64_2_1_1_2_0_0.rhsNonContracting by decide)]
  rfl

/-- The queries-by-context product, one per head h: entry (h, n, b) is the sum over the feature a of
    (head h, position n, feature a of the left factor) times (head h, feature a, feature b of the right factor). -/
theorem matmul_queries_apply (lhs : FVec Ideal S8x1024x64 .f32) (rhs : FVec Ideal S8x64x64 .f32) (h : Fin 8) (n : Fin 1024) (b : Fin 64) :
    matmul (F := Ideal) dot_S8x1024x64_S8x64x64_S8x1024x64_2_1_1_2_0_0 none lhs rhs (constant (F := Ideal) S8x1024x64 .f32 0x00000000#32) (ix3 h n b)
      = ∑ a : Fin 64, lhs (ix3 h n a) * rhs (ix3 h a b) := by
  simp only [matmul]
  rw [Ideal.matmul_constant_zero_apply, ← Equiv.sum_comp (contrEquiv1 dot_S8x1024x64_S8x64x64_S8x1024x64_2_1_1_2_0_0 64 rfl rfl).symm]
  refine Finset.sum_congr rfl fun a _ => ?_
  have hk := contrEquiv1_symm_val dot_S8x1024x64_S8x64x64_S8x1024x64_2_1_1_2_0_0 64 rfl rfl a
  have el : dot_S8x1024x64_S8x64x64_S8x1024x64_2_1_1_2_0_0.lhsIdx (ix3 h n b) ((contrEquiv1 dot_S8x1024x64_S8x64x64_S8x1024x64_2_1_1_2_0_0 64 rfl rfl).symm a) = ix3 h n a :=
    funext fun ax => Fin.ext (by
    match ax with
    | ⟨0, _⟩ => exact queries_context_lhs_0 _ _
    | ⟨1, _⟩ => exact queries_context_lhs_1 _ _
    | ⟨2, _⟩ => exact (queries_context_lhs_2 _ _).trans hk)
  have er : dot_S8x1024x64_S8x64x64_S8x1024x64_2_1_1_2_0_0.rhsIdx (ix3 h n b) ((contrEquiv1 dot_S8x1024x64_S8x64x64_S8x1024x64_2_1_1_2_0_0 64 rfl rfl).symm a) = ix3 h a b :=
    funext fun ax => Fin.ext (by
    match ax with
    | ⟨0, _⟩ => exact queries_context_rhs_0 _ _
    | ⟨1, _⟩ => exact (queries_context_rhs_1 _ _).trans hk
    | ⟨2, _⟩ => exact queries_context_rhs_2 _ _)
  rw [el, er]

end Cert.KernelIdeal.Dots
-- ==== Proof.FoldedBlock.lean ====
/-
  The kernel's arrangement over weights that are ALREADY folded.

  Inside the kernel a layer is only `max ((∑ c, X c · W c d) + β' d) 0`: a matrix `W` (input channel × output channel)
  and a bias `β'`, prepared beforehand.  `blockD` is the whole block over four such pairs; with
  `W c d = w d c · s d` and `β' d = (b d − μ d) · s d + β d` it is `blockF`, by unfolding.
-/
import proofs.«153185_j85633057947962_2_alg».proof.Proof.AttentionBlock

noncomputable section

namespace Cert.AttentionBlock

open scoped BigOperators

/-- A dense layer with a ReLU: `max ((∑ c, X c · W c d) + bias d) 0`. -/
def denseRelu (W : Fin 512 → Fin 512 → EReal) (bias : Fin 512 → EReal) (X : Fin 512 → EReal) (d : Fin 512) : EReal :=
  max ((∑ c : Fin 512, X c * W c d) + bias d) 0

/-- The block over four prepared (matrix, bias) pairs, attention keys-times-values first. -/
def blockD (Wq : Fin 512 → Fin 512 → EReal) (bq : Fin 512 → EReal) (Wk : Fin 512 → Fin 512 → EReal) (bk : Fin 512 → EReal)
    (Wv : Fin 512 → Fin 512 → EReal) (bv : Fin 512 → EReal) (Wp : Fin 512 → Fin 512 → EReal) (bp : Fin 512 → EReal)
    (x : Fin 1024 → Fin 512 → EReal) (n : Fin 1024) (j : Fin 512) : EReal :=
  denseRelu Wp bp (fun c => max (attnF (fun n' c' => denseRelu Wq bq (x n') c') (fun n' c' => denseRelu Wk bk (x n') c')
    (fun n' c' => denseRelu Wv bv (x n') c') n (headOf c) (laneOf c)) 0) j

/-- The folded matrix of a layer: `W c d = w d c · s d`. -/
def Layer.foldedW (P : Layer) (c d : Fin 512) : EReal := P.w d c * P.scaleF d
/-- The folded bias of a layer: `(b d − μ d) · s d + β d`. -/
def Layer.foldedB (P : Layer) (d : Fin 512) : EReal := (P.b d - P.mu d) * P.scaleF d + P.beta d

theorem Layer.applyF_eq_denseRelu (P : Layer) (X : Fin 512 → EReal) (d : Fin 512) :
    P.applyF X d = denseRelu P.foldedW P.foldedB X d := rfl

theorem blockF_eq_blockD (Pq Pk Pv Pp : Layer) (x : Fin 1024 → Fin 512 → EReal) (n : Fin 1024) (j : Fin 512) :
    blockF Pq Pk Pv Pp x n j
      = blockD Pq.foldedW Pq.foldedB Pk.foldedW Pk.foldedB Pv.foldedW Pv.foldedB Pp.foldedW Pp.foldedB x n j := rfl

end Cert.AttentionBlock

end
-- ==== Proof.KernelPayload.lean ====
/-
  The value the kernel's body stores, read at one index, at the ideal instance (floats are extended reals).

  The body's arithmetic is four dense layers around an attention without softmax. Read at an index, every
  operation in it is one of three kinds. A pointwise operation (sum, product, maximum, a rounding that is the
  identity on the extended reals, a broadcast scalar) reads its operands at the same index. A re-laying (a cast
  between shapes with the same row-major order, a permutation of axes, a row broadcast down the rows) reads its
  operand at the re-laid index: channel `64 h + l` is lane `l` of head `h`. A matrix product onto zero is the sum
  over the contracted axis of the products of the factors' entries. Composing these readings, bottom-up and one
  named intermediate at a time, the stored value at `(u, n, j)` is the folded block of dense layers at token `n`,
  channel `j`.
-/
import proofs.«153185_j85633057947962_2_alg».proof.Proof.Gen.KernelIdeal.Skeleton
import proofs.«153185_j85633057947962_2_alg».proof.Proof.HeadLayout
import proofs.«153185_j85633057947962_2_alg».proof.Proof.KernelDots
import proofs.«153185_j85633057947962_2_alg».proof.Proof.FoldedBlock
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Cert.KernelIdeal.Dots Cert.AttentionBlock Cert.AttentionBlock.Layout
open Idealize.ShloMosaic Idealize.ShloMosaic.ValueIdx
open scoped BigOperators

/-- One projection at an index: a matrix product onto zero, plus the bias row broadcast down the rows, rectified,
    is the dense layer with a ReLU on row `n` of the left factor. -/
theorem dense_apply (A : FVec Ideal S1024x512 .bf16) (w : FVec Ideal S512x512 .bf16) (bv : FVec Ideal S512 .f32)
    (hc1 : S512x512.ShapeCasts S512x512) (hc2 : S512.ShapeCasts S512) (hc3 : S512.ShapeCasts S1x512)
    (hb : S1x512.Broadcasts S1024x512) (n : Fin 1024) (d : Fin 512) :
    maximumf (F := Ideal)
        (addf (F := Ideal)
          (matmul (F := Ideal) dot_S1024x512_S512x512_S1024x512_1_0_0_1_n_n none A (shapeCast S512x512 w hc1)
            (constant (F := Ideal) S1024x512 .f32 0x00000000#32))
          (broadcastTo S1024x512 (shapeCast S1x512 (shapeCast S512 bv hc2) hc3) hb))
        (broadcast S1024x512 (Scalar.ofBits (F := Ideal) .f32 0x00000000#32)) (ix2 n d)
      = denseRelu (fun c d => w (ix2 c d)) (fun d => bv (ix1 d)) (fun c => A (ix2 n c)) d := by
  rw [maximumf_apply, addf_apply, broadcast_apply, matmul_plain_apply, shapeCast_self, shapeCast_self,
    broadcastTo_1b_ab_apply, shapeCast_a_1a_apply]
  show max _ (Ideal.ofBits .f32 0x00000000#32) = _
  rw [Ideal.ofBits_zero_f32]
  rfl

/-- The input block as a matrix: entry `(n, c)` is entry `(0, n, c)` of the block. -/
theorem pay2_apply (x0 : Vec Ideal S1x1024x512 .f32) (n : Fin 1024) (c : Fin 512) :
    k0_pay2 (F := Ideal) x0 (ix2 n c) = x0 (ix3 (0 : Fin 1) n c) := by
  unfold k0_pay2
  exact shapeCast_1ab_ab_apply x0 _ n c

/-- The query layer, split into heads, heads first: entry `(h, n, l)` is the dense layer on token `n` at channel
    `64 h + l`. -/
theorem pay3_apply (x0 : Vec Ideal S1x1024x512 .f32) (x1 : Vec Ideal S512x512 .bf16) (x2 : Vec Ideal S512 .f32)
    (h : Fin 8) (n : Fin 1024) (l : Fin 64) :
    k0_pay3 (F := Ideal) x0 x1 x2 (ix3 h n l)
      = denseRelu (fun c d => x1 (ix2 c d)) (fun d => x2 (ix1 d)) (fun c => x0 (ix3 (0 : Fin 1) n c)) (hd h l) := by
  unfold k0_pay3
  refine (heads_first_apply _ _ h n l).trans ?_
  refine (split_heads_apply _ _ n h l).trans ?_
  refine (dense_apply (k0_pay2 (F := Ideal) x0) x1 x2 _ _ _ _ n (hd h l)).trans ?_
  simp only [pay2_apply]

/-- Keys times values, one matrix per head: entry `(h, a, b)` is the sum over the tokens of the key layer at
    channel `64 h + a` times the value layer at channel `64 h + b`. -/
theorem pay4_apply (x0 : Vec Ideal S1x1024x512 .f32) (x3 : Vec Ideal S512x512 .bf16) (x4 : Vec Ideal S512 .f32)
    (x5 : Vec Ideal S512x512 .bf16) (x6 : Vec Ideal S512 .f32) (h : Fin 8) (a b : Fin 64) :
    k0_pay4 (F := Ideal) x0 x3 x4 x5 x6 (ix3 h a b)
      = ∑ m : Fin 1024,
          denseRelu (fun c d => x3 (ix2 c d)) (fun d => x4 (ix1 d)) (fun c => x0 (ix3 (0 : Fin 1) m c)) (hd h a)
          * denseRelu (fun c d => x5 (ix2 c d)) (fun d => x6 (ix1 d)) (fun c => x0 (ix3 (0 : Fin 1) m c)) (hd h b) := by
  unfold k0_pay4
  refine (matmul_keys_values_apply _ _ h a b).trans ?_
  refine Finset.sum_congr rfl fun m _ => ?_
  refine congrArg₂ (· * ·) ?_ ?_
  · refine (heads_first_tokens_last_apply _ _ h a m).trans ?_
    refine (split_heads_apply _ _ m h a).trans ?_
    refine (dense_apply (k0_pay2 (F := Ideal) x0) x3 x4 _ _ _ _ m (hd h a)).trans ?_
    simp only [pay2_apply]
  · refine (heads_first_apply _ _ h m b).trans ?_
    refine (split_heads_apply _ _ m h b).trans ?_
    refine (dense_apply (k0_pay2 (F := Ideal) x0) x5 x6 _ _ _ _ m (hd h b)).trans ?_
    simp only [pay2_apply]

/-- The stored value over ANY per-head queries `Q3` and per-head keys-times-values `KV`: scale, queries product,
    heads merged back, ReLU, the output layer. -/
theorem pay1_apply (Q3 : FVec Ideal S8x1024x64 .f32) (KV : FVec Ideal S8x64x64 .f32) (x7 : Vec Ideal S512x512 .bf16)
    (x8 : Vec Ideal S512 .f32) (u : Fin 1) (n : Fin 1024) (j : Fin 512) :
    k0_pay1 (F := Ideal) Q3 KV x7 x8 (ix3 u n j)
      = denseRelu (fun c d => x7 (ix2 c d)) (fun d => x8 (ix1 d))
          (fun c => max (∑ a : Fin 64, Q3 (ix3 (headOf c) n a) * (KV (ix3 (headOf c) a (laneOf c)) * sclW)) 0) j := by
  unfold k0_pay1
  refine (shapeCast_ab_1ab_apply _ _ u n j).trans ?_
  refine (dense_apply _ x7 x8 _ _ _ _ n j).trans ?_
  refine congrArg (fun X => denseRelu (fun c d => x7 (ix2 c d)) (fun d => x8 (ix1 d)) X j) (funext fun c => ?_)
  rw [truncf_apply, maximumf_apply, broadcast_apply, merge_heads_apply, tokens_first_apply, matmul_queries_apply]
  show max _ (Ideal.ofBits .f32 0x00000000#32) = _
  rw [Ideal.ofBits_zero_f32]
  rfl

theorem payload_apply (x0 : Vec Ideal S1x1024x512 .f32) (x1 : Vec Ideal S512x512 .bf16) (x2 : Vec Ideal S512 .f32)
    (x3 : Vec Ideal S512x512 .bf16) (x4 : Vec Ideal S512 .f32) (x5 : Vec Ideal S512x512 .bf16) (x6 : Vec Ideal S512 .f32)
    (x7 : Vec Ideal S512x512 .bf16) (x8 : Vec Ideal S512 .f32) (u : Fin 1) (n : Fin 1024) (j : Fin 512) :
    k0_pay1 (F := Ideal) (k0_pay3 (F := Ideal) x0 x1 x2) (k0_pay4 (F := Ideal) x0 x3 x4 x5 x6) x7 x8 (ix3 u n j)
      = blockD (fun c d => x1 (ix2 c d)) (fun d => x2 (ix1 d)) (fun c d => x3 (ix2 c d)) (fun d => x4 (ix1 d))
               (fun c d => x5 (ix2 c d)) (fun d => x6 (ix1 d)) (fun c d => x7 (ix2 c d)) (fun d => x8 (ix1 d))
               (fun n' c' => x0 (ix3 (0 : Fin 1) n' c')) n j := by
  rw [pay1_apply]
  simp only [pay3_apply, pay4_apply]
  rfl

end Cert.KernelIdeal.Payload

end
-- ==== Proof.FoldedWeights.lean ====
/-
  What the arrays the host computes before the kernel hold, at the ideal instance (floats are extended reals).

  For each of the four layers (queries, keys, values, output projection) the host folds the batch normalisation
  into the linear layer: with the per-channel scale s = g * (1 / sqrt (var + eps)), the folded weight matrix is the
  transpose of w scaled row by row, entry (c, d) being w (d, c) * s (d), and the folded bias is (b - mu) * s + beta.
  The change of format to the 16-bit type is the identity at the ideal instance.
-/
import proofs.«153185_j85633057947962_2_alg».proof.Proof.Gen.KernelIdeal
import proofs.«153185_j85633057947962_2_alg».proof.Proof.KernelIdealFrameP
import proofs.«153185_j85633057947962_2_alg».proof.Proof.FoldedBlock
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Folded

open Cert.KernelIdeal Cert.KernelIdeal.Gen Cert.KernelIdeal.GenP Idealize.ShloMosaic Idealize.ShloMosaic.TcCoe Idealize.SL.Sem
open Idealize.ShloMosaic.ValueIdx

/-! ## The host's operations for one layer, as terms, and their values at an index -/

/-- The per-channel scale g * (1 / sqrt (var + eps)), as the host's operations compute it. -/
abbrev scaleOps (g var : FVec Ideal S512 .f32) : FVec Ideal S512 .f32 :=
  mulf g (Host.divf (broadcastInDim S512 ![] bcast_S_S512 (constant (F := Ideal) S_ .f32 0x3F800000#32))
    (Host.sqrt (addf var (broadcastInDim S512 ![] bcast_S_S512 (constant (F := Ideal) S_ .f32 0x3727C5AC#32)))))

/-- The folded weight matrix: w scaled row by row, transposed, in the 16-bit format. -/
abbrev weightsOps (w : FVec Ideal S512x512 .f32) (g var : FVec Ideal S512 .f32) : FVec Ideal S512x512 .bf16 :=
  truncf .bf16 (transpose S512x512 [1, 0]
    (mulf w (broadcastInDim S512x512 ![0, 1] bcast_S512x1_S512x512_0_1
      (broadcastInDim S512x1 ![0] bcast_S512_S512x1_0 (scaleOps g var))))
    transposes_S512x512_S512x512_1_0) bitsLt_bf16_f32

/-- The folded bias (b - mu) * scale + beta. -/
abbrev biasOps (b g beta mu var : FVec Ideal S512 .f32) : FVec Ideal S512 .f32 :=
  addf (mulf (subf b mu) (scaleOps g var)) beta

/-- The scale at channel d: g d * (1 / sqrt (var d + eps)); the two constants are splats, the operations pointwise. -/
theorem scaleOps_apply (g var : FVec Ideal S512 .f32) (dd : Fin 512) :
    scaleOps g var (ix1 dd)
      = g (ix1 dd) * Ideal.div (Ideal.ofBits .f32 0x3F800000#32) (Ideal.sqrt (var (ix1 dd) + Ideal.ofBits .f32 0x3727C5AC#32)) :=
  rfl

/-- A vector broadcast along a new trailing unit axis and then across the columns reads, at (d, c), its entry d. -/
theorem rowBroadcast_apply (x : FVec Ideal S512 .f32) (dd cc : Fin 512) :
    broadcastInDim S512x512 ![0, 1] bcast_S512x1_S512x512_0_1 (broadcastInDim S512x1 ![0] bcast_S512_S512x1_0 x) (ix2 dd cc)
      = x (ix1 dd) := by
  rw [broadcastInDim_apply _ bcast_S512x1_S512x512_0_1 _ (ix2 dd cc) (ix2 dd (0 : Fin 1)) (fun a => match a with
    | ⟨0, _⟩ => by show dd.val = if (512 : Nat) = 1 then 0 else dd.val; rw [if_neg (by decide)]
    | ⟨1, _⟩ => by show 0 = if (1 : Nat) = 1 then 0 else cc.val; rw [if_pos rfl])]
  exact broadcastInDim_apply _ bcast_S512_S512x1_0 x (ix2 dd (0 : Fin 1)) (ix1 dd) (fun a => match a with
    | ⟨0, _⟩ => by show dd.val = if (512 : Nat) = 1 then 0 else dd.val; rw [if_neg (by decide)])

/-- The folded weight at (c, d) is w (d, c) times the scale at d. -/
theorem weightsOps_apply (w : FVec Ideal S512x512 .f32) (g var : FVec Ideal S512 .f32) (cc dd : Fin 512) :
    weightsOps w g var (ix2 cc dd)
      = w (ix2 dd cc) * (g (ix1 dd) * Ideal.div (Ideal.ofBits .f32 0x3F800000#32) (Ideal.sqrt (var (ix1 dd) + Ideal.ofBits .f32 0x3727C5AC#32))) := by
  have h1 : weightsOps w g var (ix2 cc dd)
      = transpose S512x512 [1, 0]
          (mulf w (broadcastInDim S512x512 ![0, 1] bcast_S512x1_S512x512_0_1
            (broadcastInDim S512x1 ![0] bcast_S512_S512x1_0 (scaleOps g var))))
          transposes_S512x512_S512x512_1_0 (ix2 cc dd) := rfl
  rw [h1, transpose_ix2_apply]
  show w (ix2 dd cc) * _ = _
  rw [rowBroadcast_apply, scaleOps_apply]

/-- The folded bias at d is (b d - mu d) times the scale at d, plus beta d. -/
theorem biasOps_apply (b g beta mu var : FVec Ideal S512 .f32) (dd : Fin 512) :
    biasOps b g beta mu var (ix1 dd)
      = (b (ix1 dd) - mu (ix1 dd)) * (g (ix1 dd) * Ideal.div (Ideal.ofBits .f32 0x3F800000#32) (Ideal.sqrt (var (ix1 dd) + Ideal.ofBits .f32 0x3727C5AC#32)))
        + beta (ix1 dd) :=
  rfl

/-! ## The arrays the region finds, layer by layer

The memory as the region finds it is the launched memory after the host's operations; each array below is
written once, by a chain of operations over the launched arguments alone, so it is the term above; read at an
index it is the folded weight, or the folded bias, of the layer whose parameters are the six launched arrays. -/

variable (m : (ℓ : Loc nD τ sig) → Buf (Elt Ideal) ℓ)

/-! ### The queries layer -/

/-- The array the region finds as the queries layer's weights is the host's operations applied to the launched arguments. -/
theorem V_weights_q (c : Dev nD) :
    (V m c main_v13 : S512x512.Idx → EReal) = weightsOps (m ((c : Thread nD τ).loc main_arg1)) (m ((c : Thread nD τ).loc main_arg3)) (m ((c : Thread nD τ).loc main_arg6)) := by
  dsimp only [GenP.V, GenP.hostOps0]
  after_results_simp <;> rfl

/-- The queries layer's folded weight at (c, d): w (d, c) * (g d * (1 / sqrt (var d + eps))). -/
theorem weights_q (c : Dev nD) (cc dd : Fin 512) :
    (V m c main_v13 : S512x512.Idx → EReal) (ix2 cc dd)
      = (Cert.AttentionBlock.layerOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).foldedW cc dd :=
  (congrFun (V_weights_q m c) (ix2 cc dd)).trans ((weightsOps_apply _ _ _ cc dd).trans rfl)

/-- The array the region finds as the queries layer's bias is the host's operations applied to the launched arguments. -/
theorem V_bias_q (c : Dev nD) :
    (V m c main_v11 : S512.Idx → EReal) = biasOps (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [GenP.V, GenP.hostOps0]
  after_results_simp <;> rfl

/-- The queries layer's folded bias at d: (b d - mu d) * (g d * (1 / sqrt (var d + eps))) + beta d. -/
theorem bias_q (c : Dev nD) (dd : Fin 512) :
    (V m c main_v11 : S512.Idx → EReal) (ix1 dd)
      = (Cert.AttentionBlock.layerOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).foldedB dd :=
  (congrFun (V_bias_q m c) (ix1 dd)).trans ((biasOps_apply _ _ _ _ _ dd).trans rfl)

/-! ### The keys layer -/

/-- The array the region finds as the keys layer's weights is the host's operations applied to the launched arguments. -/
theorem V_weights_k (c : Dev nD) :
    (V m c main_v27 : S512x512.Idx → EReal) = weightsOps (m ((c : Thread nD τ).loc main_arg7)) (m ((c : Thread nD τ).loc main_arg9)) (m ((c : Thread nD τ).loc main_arg12)) := by
  dsimp only [GenP.V, GenP.hostOps0]
  after_results_simp <;> rfl

/-- The keys layer's folded weight at (c, d): w (d, c) * (g d * (1 / sqrt (var d + eps))). -/
theorem weights_k (c : Dev nD) (cc dd : Fin 512) :
    (V m c main_v27 : S512x512.Idx → EReal) (ix2 cc dd)
      = (Cert.AttentionBlock.layerOf (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))).foldedW cc dd :=
  (congrFun (V_weights_k m c) (ix2 cc dd)).trans ((weightsOps_apply _ _ _ cc dd).trans rfl)

/-- The array the region finds as the keys layer's bias is the host's operations applied to the launched arguments. -/
theorem V_bias_k (c : Dev nD) :
    (V m c main_v25 : S512.Idx → EReal) = biasOps (m ((c : Thread nD τ).loc main_arg8)) (m ((c : Thread nD τ).loc main_arg9)) (m ((c : Thread nD τ).loc main_arg10)) (m ((c : Thread nD τ).loc main_arg11)) (m ((c : Thread nD τ).loc main_arg12)) := by
  dsimp only [GenP.V, GenP.hostOps0]
  after_results_simp <;> rfl

/-- The keys layer's folded bias at d: (b d - mu d) * (g d * (1 / sqrt (var d + eps))) + beta d. -/
theorem bias_k (c : Dev nD) (dd : Fin 512) :
    (V m c main_v25 : S512.Idx → EReal) (ix1 dd)
      = (Cert.AttentionBlock.layerOf (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))).foldedB dd :=
  (congrFun (V_bias_k m c) (ix1 dd)).trans ((biasOps_apply _ _ _ _ _ dd).trans rfl)

/-! ### The values layer -/

/-- The array the region finds as the values layer's weights is the host's operations applied to the launched arguments. -/
theorem V_weights_v (c : Dev nD) :
    (V m c main_v41 : S512x512.Idx → EReal) = weightsOps (m ((c : Thread nD τ).loc main_arg13)) (m ((c : Thread nD τ).loc main_arg15)) (m ((c : Thread nD τ).loc main_arg18)) := by
  dsimp only [GenP.V, GenP.hostOps0]
  after_results_simp <;> rfl

/-- The values layer's folded weight at (c, d): w (d, c) * (g d * (1 / sqrt (var d + eps))). -/
theorem weights_v (c : Dev nD) (cc dd : Fin 512) :
    (V m c main_v41 : S512x512.Idx → EReal) (ix2 cc dd)
      = (Cert.AttentionBlock.layerOf (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).foldedW cc dd :=
  (congrFun (V_weights_v m c) (ix2 cc dd)).trans ((weightsOps_apply _ _ _ cc dd).trans rfl)

/-- The array the region finds as the values layer's bias is the host's operations applied to the launched arguments. -/
theorem V_bias_v (c : Dev nD) :
    (V m c main_v39 : S512.Idx → EReal) = biasOps (m ((c : Thread nD τ).loc main_arg14)) (m ((c : Thread nD τ).loc main_arg15)) (m ((c : Thread nD τ).loc main_arg16)) (m ((c : Thread nD τ).loc main_arg17)) (m ((c : Thread nD τ).loc main_arg18)) := by
  dsimp only [GenP.V, GenP.hostOps0]
  after_results_simp <;> rfl

/-- The values layer's folded bias at d: (b d - mu d) * (g d * (1 / sqrt (var d + eps))) + beta d. -/
theorem bias_v (c : Dev nD) (dd : Fin 512) :
    (V m c main_v39 : S512.Idx → EReal) (ix1 dd)
      = (Cert.AttentionBlock.layerOf (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).foldedB dd :=
  (congrFun (V_bias_v m c) (ix1 dd)).trans ((biasOps_apply _ _ _ _ _ dd).trans rfl)

/-! ### The output projection layer -/

/-- The array the region finds as the output projection layer's weights is the host's operations applied to the launched arguments. -/
theorem V_weights_p (c : Dev nD) :
    (V m c main_v55 : S512x512.Idx → EReal) = weightsOps (m ((c : Thread nD τ).loc main_arg19)) (m ((c : Thread nD τ).loc main_arg21)) (m ((c : Thread nD τ).loc main_arg24)) := by
  dsimp only [GenP.V, GenP.hostOps0]
  after_results_simp <;> rfl

/-- The output projection layer's folded weight at (c, d): w (d, c) * (g d * (1 / sqrt (var d + eps))). -/
theorem weights_p (c : Dev nD) (cc dd : Fin 512) :
    (V m c main_v55 : S512x512.Idx → EReal) (ix2 cc dd)
      = (Cert.AttentionBlock.layerOf (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))).foldedW cc dd :=
  (congrFun (V_weights_p m c) (ix2 cc dd)).trans ((weightsOps_apply _ _ _ cc dd).trans rfl)

/-- The array the region finds as the output projection layer's bias is the host's operations applied to the launched arguments. -/
theorem V_bias_p (c : Dev nD) :
    (V m c main_v53 : S512.Idx → EReal) = biasOps (m ((c : Thread nD τ).loc main_arg20)) (m ((c : Thread nD τ).loc main_arg21)) (m ((c : Thread nD τ).loc main_arg22)) (m ((c : Thread nD τ).loc main_arg23)) (m ((c : Thread nD τ).loc main_arg24)) := by
  dsimp only [GenP.V, GenP.hostOps0]
  after_results_simp <;> rfl

/-- The output projection layer's folded bias at d: (b d - mu d) * (g d * (1 / sqrt (var d + eps))) + beta d. -/
theorem bias_p (c : Dev nD) (dd : Fin 512) :
    (V m c main_v53 : S512.Idx → EReal) (ix1 dd)
      = (Cert.AttentionBlock.layerOf (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))).foldedB dd :=
  (congrFun (V_bias_p m c) (ix1 dd)).trans ((biasOps_apply _ _ _ _ _ dd).trans rfl)

end Cert.KernelIdeal.Folded
end
-- ==== Proof.KernelValue.lean ====
/-
  The kernel's result array, as one function of the argument arrays.

  Point `t` of the launch stages batch element `t` of the input and the four layers' prepared matrices and biases, and
  stores one payload: the block (three dense layers with ReLU, the softmax-free attention keys-times-values first, a
  ReLU, a fourth dense layer) of those staged blocks.  The prepared matrices and biases are the layers' weights with the
  normalisation folded in, so the payload at `(·, n, j)` is the block's value `resultF` at `(t, n, j)`; point `t` writes
  it back to rows `[t, t+1)` of the result, and the eight points' blocks tile the result array.  Hence the array after
  the run is `resultF` of the arguments as launched.
-/
import proofs.«153185_j85633057947962_2_alg».proof.Proof.KernelBlocks
import proofs.«153185_j85633057947962_2_alg».proof.Proof.KernelPayload
import proofs.«153185_j85633057947962_2_alg».proof.Proof.FoldedBlock
import proofs.«153185_j85633057947962_2_alg».proof.Proof.FoldedWeights

noncomputable section

namespace Cert.KernelIdeal.BlockValue

open Cert.KernelIdeal Cert.KernelIdeal.Gen Cert.KernelIdeal.GenP Cert.KernelIdeal.Blocks Cert.AttentionBlock
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- One stored entry, over variables: if the staged input block is batch element `b` of `a0` and the staged matrices and
    biases are the four layers' folded weights, the body's payload at `(·, n, j)` is the block's value at `(b, n, j)`. -/
theorem point_value (a0 : S8x1024x512.Idx → EReal) (a1 : S512x512.Idx → EReal) (a2 a3 a4 a5 a6 : S512.Idx → EReal) (a7 : S512x512.Idx → EReal) (a8 a9 a10 a11 a12 : S512.Idx → EReal) (a13 : S512x512.Idx → EReal) (a14 a15 a16 a17 a18 : S512.Idx → EReal) (a19 : S512x512.Idx → EReal) (a20 a21 a22 a23 a24 : S512.Idx → EReal)
    (b : Fin 8) (x0 : Vec Ideal S1x1024x512 .f32) (x1 : Vec Ideal S512x512 .bf16) (x2 : Vec Ideal S512 .f32)
    (x3 : Vec Ideal S512x512 .bf16) (x4 : Vec Ideal S512 .f32) (x5 : Vec Ideal S512x512 .bf16) (x6 : Vec Ideal S512 .f32)
    (x7 : Vec Ideal S512x512 .bf16) (x8 : Vec Ideal S512 .f32)
    (h0 : ∀ (u : Fin 1) (n : Fin 1024) (k : Fin 512), x0 (ix3 u n k) = a0 (ix3 b n k))
    (h1 : ∀ c d : Fin 512, x1 (ix2 c d) = (layerOf a1 a2 a3 a4 a5 a6).foldedW c d) (h2 : ∀ d : Fin 512, x2 (ix1 d) = (layerOf a1 a2 a3 a4 a5 a6).foldedB d)
    (h3 : ∀ c d : Fin 512, x3 (ix2 c d) = (layerOf a7 a8 a9 a10 a11 a12).foldedW c d) (h4 : ∀ d : Fin 512, x4 (ix1 d) = (layerOf a7 a8 a9 a10 a11 a12).foldedB d)
    (h5 : ∀ c d : Fin 512, x5 (ix2 c d) = (layerOf a13 a14 a15 a16 a17 a18).foldedW c d) (h6 : ∀ d : Fin 512, x6 (ix1 d) = (layerOf a13 a14 a15 a16 a17 a18).foldedB d)
    (h7 : ∀ c d : Fin 512, x7 (ix2 c d) = (layerOf a19 a20 a21 a22 a23 a24).foldedW c d) (h8 : ∀ d : Fin 512, x8 (ix1 d) = (layerOf a19 a20 a21 a22 a23 a24).foldedB d)
    (u : Fin 1) (n : Fin 1024) (j : Fin 512) :
    k0_pay1 (F := Ideal) (k0_pay3 (F := Ideal) x0 x1 x2) (k0_pay4 (F := Ideal) x0 x3 x4 x5 x6) x7 x8 (ix3 u n j)
      = resultF a0 a1 a2 a3 a4 a5 a6 a7 a8 a9 a10 a11 a12 a13 a14 a15 a16 a17 a18 a19 a20 a21 a22 a23 a24 (ix3 b n j) := by
  rw [Cert.KernelIdeal.Payload.payload_apply]
  show _ = blockF (layerOf a1 a2 a3 a4 a5 a6) (layerOf a7 a8 a9 a10 a11 a12) (layerOf a13 a14 a15 a16 a17 a18) (layerOf a19 a20 a21 a22 a23 a24) (batchOf a0 b) n j
  rw [blockF_eq_blockD,
    show (fun c d => x1 (ix2 c d)) = (layerOf a1 a2 a3 a4 a5 a6).foldedW from funext fun c => funext fun d => h1 c d,
    show (fun d => x2 (ix1 d)) = (layerOf a1 a2 a3 a4 a5 a6).foldedB from funext fun d => h2 d,
    show (fun c d => x3 (ix2 c d)) = (layerOf a7 a8 a9 a10 a11 a12).foldedW from funext fun c => funext fun d => h3 c d,
    show (fun d => x4 (ix1 d)) = (layerOf a7 a8 a9 a10 a11 a12).foldedB from funext fun d => h4 d,
    show (fun c d => x5 (ix2 c d)) = (layerOf a13 a14 a15 a16 a17 a18).foldedW from funext fun c => funext fun d => h5 c d,
    show (fun d => x6 (ix1 d)) = (layerOf a13 a14 a15 a16 a17 a18).foldedB from funext fun d => h6 d,
    show (fun c d => x7 (ix2 c d)) = (layerOf a19 a20 a21 a22 a23 a24).foldedW from funext fun c => funext fun d => h7 c d,
    show (fun d => x8 (ix1 d)) = (layerOf a19 a20 a21 a22 a23 a24).foldedB from funext fun d => h8 d,
    show (fun n' c' => x0 (ix3 (0 : Fin 1) n' c')) = batchOf a0 b from funext fun n' => funext fun c' => h0 0 n' c']

/-- The result array as a function of the arguments as launched: the block in the kernel's arrangement. -/
def G (c : Dev nD) : S8x1024x512.Idx → EReal :=
  resultF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))

/-- What point `t` stores at `(u, n, j)` of its output block is the block's value at `(t, n, j)`. -/
theorem stored_entry (c : Dev nD) (t : Fin cfg0.N) (b : Fin 8) (hb : b.val = t.val) (u : Fin 1) (n : Fin 1024) (j : Fin 512) :
    k0_pay1 (F := Ideal) (k0_pay3 (F := Ideal) (iblk m c 0 t) (iblk m c 1 t) (iblk m c 2 t))
        (k0_pay4 (F := Ideal) (iblk m c 0 t) (iblk m c 3 t) (iblk m c 4 t) (iblk m c 5 t) (iblk m c 6 t)) (iblk m c 7 t) (iblk m c 8 t) (ix3 u n j)
      = G m c (ix3 b n j) :=
  point_value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) b (iblk m c 0 t) (iblk m c 1 t) (iblk m c 2 t) (iblk m c 3 t) (iblk m c 4 t) (iblk m c 5 t) (iblk m c 6 t) (iblk m c 7 t) (iblk m c 8 t)
    (fun u n k => input_block m c t b hb u n k)
    (fun a d => (matrix_q_block m c t a d).trans (Cert.KernelIdeal.Folded.weights_q m c a d)) (fun d => (bias_q_block m c t d).trans (Cert.KernelIdeal.Folded.bias_q m c d))
    (fun a d => (matrix_k_block m c t a d).trans (Cert.KernelIdeal.Folded.weights_k m c a d)) (fun d => (bias_k_block m c t d).trans (Cert.KernelIdeal.Folded.bias_k m c d))
    (fun a d => (matrix_v_block m c t a d).trans (Cert.KernelIdeal.Folded.weights_v m c a d)) (fun d => (bias_v_block m c t d).trans (Cert.KernelIdeal.Folded.bias_v m c d))
    (fun a d => (matrix_p_block m c t a d).trans (Cert.KernelIdeal.Folded.weights_p m c a d)) (fun d => (bias_p_block m c t d).trans (Cert.KernelIdeal.Folded.bias_p m c d))
    u n j

/-- The same at any index of the output block. -/
theorem stored_at (c : Dev nD) (t : Fin cfg0.N) (b : Fin 8) (hb : b.val = t.val) (y : S1x1024x512.Idx) :
    k0_pay1 (F := Ideal) (k0_pay3 (F := Ideal) (iblk m c 0 t) (iblk m c 1 t) (iblk m c 2 t))
        (k0_pay4 (F := Ideal) (iblk m c 0 t) (iblk m c 3 t) (iblk m c 4 t) (iblk m c 5 t) (iblk m c 6 t)) (iblk m c 7 t) (iblk m c 8 t) y
      = G m c (ix3 b (y 1) (y 2)) := by
  obtain ⟨u, n, j, rfl⟩ : ∃ (u : Fin 1) (n : Fin 1024) (j : Fin 512), y = ix3 u n j := ⟨y 0, y 1, y 2, eq_ix3 y⟩
  exact stored_entry m c t b hb u n j

/-- WHAT POINT `t` WRITES BACK is block `t` of `G`. -/
theorem flushed_eq (c : Dev nD) (t : Fin cfg0.N) :
    (dats m 0 c).flushed 9 t = ((cfg0.win 9).blk t).view.read (Elt Ideal) (G m c) := by
  have hN : cfg0.N = 8 := N_0
  obtain ⟨-, -, -, e0, e1, e2⟩ := idx_rows t
  rw [Cert.KernelIdeal.ValueP.flushed9]
  unfold out0_9
  rw [View.canon_unit_zero hz3]
  simp only [View.ld_unit_zero (S := S1x1024x512) hz3, View.ld_unit_zero (S := S512x512) hz2, View.ld_unit_zero (S := S512) hz1]
  funext y
  refine (stored_at m c t ⟨t.val, by omega⟩ rfl y).trans ?_
  refine congrArg (G m c) (funext fun a => Fin.ext ?_)
  have h0 : ((y : S1x1024x512.Idx) 0).val < 1 := ((y : S1x1024x512.Idx) 0).isLt
  match a with
  | ⟨0, _⟩ => show t.val = win0_9.index t (0 : Fin 3) * 1 + 1 * ((y : S1x1024x512.Idx) 0).val; rw [e0]; omega
  | ⟨1, _⟩ => show ((y : S1x1024x512.Idx) 1).val = win0_9.index t (1 : Fin 3) * 1024 + 1 * ((y : S1x1024x512.Idx) 1).val; rw [e1]; omega
  | ⟨2, _⟩ => show ((y : S1x1024x512.Idx) 2).val = win0_9.index t (2 : Fin 3) * 512 + 1 * ((y : S1x1024x512.Idx) 2).val; rw [e2]; omega

/-- Every index of the result lies in the block of the point named by its batch coordinate. -/
theorem covered (i : S8x1024x512.Idx) :
    ∃ t : Fin cfg0.N, (cfg0.win 9).flush t = true ∧ i ∈ ((cfg0.win 9).blk t).view.set := by
  have hN : cfg0.N = 8 := N_0
  have hi0 : (i 0).val < 8 := (i 0).isLt
  have hi1 : (i 1).val < 1024 := (i 1).isLt
  have hi2 : (i 2).val < 512 := (i 2).isLt
  obtain ⟨t, ht⟩ : ∃ t : Fin cfg0.N, t.val = (i 0).val := ⟨⟨(i 0).val, by omega⟩, rfl⟩
  obtain ⟨-, -, -, e0, e1, e2⟩ := idx_rows t
  refine ⟨t, flush0_9 t, ?_⟩
  show i ∈ ((View.whole main_v56).slice (win0_9.rect t)).set
  rw [View.set_slice_whole, Rect.mem_set_unit]
  intro a
  match a with
  | ⟨0, _⟩ => show win0_9.index t (0 : Fin 3) * 1 ≤ (i 0).val ∧ (i 0).val < win0_9.index t (0 : Fin 3) * 1 + 1; rw [e0]; omega
  | ⟨1, _⟩ => show win0_9.index t (1 : Fin 3) * 1024 ≤ (i 1).val ∧ (i 1).val < win0_9.index t (1 : Fin 3) * 1024 + 1024; rw [e1]; omega
  | ⟨2, _⟩ => show win0_9.index t (2 : Fin 3) * 512 ≤ (i 2).val ∧ (i 2).val < win0_9.index t (2 : Fin 3) * 512 + 512; rw [e2]; omega

/-- THE ARRAY after the run is `G`: point `b` writes back batch element `b`, and the eight blocks cover the array. -/
theorem final (c : Dev nD) : (dats m 0 c).arrAt 9 cfg0.N = G m c :=
  (dats m 0 c).arrAt_eq_of_cover 9 (G m c) (fun t _ => flushed_eq m c t) (fun i => covered i)

/-- The run, read: the result array ends at the block (in the kernel's arrangement) of the arguments as launched; the arguments end unchanged. -/
theorem run : θ_run defs (onTc (τ := τ) (main (F := Ideal))) ⟨m, fun _ => 0, ρ⟩ fun r => ∀ c : Dev nD,
      r.2.mem ((c : Thread nD τ).loc main_v56) = resultF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) :=
  (θ_run defs _ _).mono (fun r h c => ⟨(h c).1.trans (final m c), (h c).2⟩) (Cert.KernelIdeal.ValueP.run_blocks m ρ)

end Cert.KernelIdeal.BlockValue

end
-- ==== Proof.Claims.lean ====
/-
  The five claims of the certificate, assembled.

  The three frame claims are the runs of the three programs with the value conjunct dropped.  The algebraic claim
  names one array for both programs: the attention block of the kernel's argument arrays, in the arrangement the
  reference evaluates.  The reference run ends at that array because its result, read stage by stage, is that
  block; the kernel run ends at the same block in the folded, re-associated arrangement, and the two arrangements
  agree because the precondition makes every argument entry a real number and every variance plus ε positive.
-/
import proofs.«153185_j85633057947962_2_alg».proof.Defs
import proofs.«153185_j85633057947962_2_alg».proof.Proof.Gen.Kernel
import proofs.«153185_j85633057947962_2_alg».proof.Proof.Gen.KernelIdeal
import proofs.«153185_j85633057947962_2_alg».proof.Proof.Gen.ReferenceIdeal
import proofs.«153185_j85633057947962_2_alg».proof.Proof.Gen.Pre_finite_inputs
import proofs.«153185_j85633057947962_2_alg».proof.Proof.KernelFrameP
import proofs.«153185_j85633057947962_2_alg».proof.Proof.KernelIdealFrameP
import proofs.«153185_j85633057947962_2_alg».proof.Proof.Gen.ReferenceIdeal.Run
import proofs.«153185_j85633057947962_2_alg».proof.Proof.Gen.ReferenceIdeal.Read
import proofs.«153185_j85633057947962_2_alg».proof.Proof.AttentionBlock
import proofs.«153185_j85633057947962_2_alg».proof.Proof.Rearrange
import proofs.«153185_j85633057947962_2_alg».proof.Proof.InputDomain
import proofs.«153185_j85633057947962_2_alg».proof.Proof.ReferenceValue
import proofs.«153185_j85633057947962_2_alg».proof.Proof.KernelValue

noncomputable section

namespace Cert.Proof.BlockClaims

open Idealize.ShloMosaic Idealize.ShloMosaic.ValueIdx Idealize.SL.Sem Cert.AttentionBlock

/-- On arguments whose entries are all real numbers, with every variance plus ε positive, the folded and
    re-associated arrangement of the block is the arrangement the reference evaluates: each of the four layers has
    real parameters and a positive `var + ε`, and each batch element of the input is a real matrix. -/
theorem resultF_eq_result (a0 : (⟨3, ![8, 1024, 512]⟩ : Shape).Idx → EReal) (a1 : (⟨2, ![512, 512]⟩ : Shape).Idx → EReal) (a2 a3 a4 a5 a6 : (⟨1, ![512]⟩ : Shape).Idx → EReal)
    (a7 : (⟨2, ![512, 512]⟩ : Shape).Idx → EReal) (a8 a9 a10 a11 a12 : (⟨1, ![512]⟩ : Shape).Idx → EReal)
    (a13 : (⟨2, ![512, 512]⟩ : Shape).Idx → EReal) (a14 a15 a16 a17 a18 : (⟨1, ![512]⟩ : Shape).Idx → EReal)
    (a19 : (⟨2, ![512, 512]⟩ : Shape).Idx → EReal) (a20 a21 a22 a23 a24 : (⟨1, ![512]⟩ : Shape).Idx → EReal)
    (h : Cert.InputDomain.Holds a0 a1 a2 a3 a4 a5 a6 a7 a8 a9 a10 a11 a12 a13 a14 a15 a16 a17 a18 a19 a20 a21 a22 a23 a24) :
    resultF a0 a1 a2 a3 a4 a5 a6 a7 a8 a9 a10 a11 a12 a13 a14 a15 a16 a17 a18 a19 a20 a21 a22 a23 a24 = result a0 a1 a2 a3 a4 a5 a6 a7 a8 a9 a10 a11 a12 a13 a14 a15 a16 a17 a18 a19 a20 a21 a22 a23 a24 := by
  funext i
  exact blockF_eq_block _ _ _ _
    ⟨fun d c => h.fin1 (ix2 d c), fun d => h.fin2 (ix1 d), fun d => h.fin3 (ix1 d), fun d => h.fin4 (ix1 d),
      fun d => h.fin5 (ix1 d), fun d => h.fin6 (ix1 d), fun d => h.pos6 (ix1 d)⟩
    ⟨fun d c => h.fin7 (ix2 d c), fun d => h.fin8 (ix1 d), fun d => h.fin9 (ix1 d), fun d => h.fin10 (ix1 d),
      fun d => h.fin11 (ix1 d), fun d => h.fin12 (ix1 d), fun d => h.pos12 (ix1 d)⟩
    ⟨fun d c => h.fin13 (ix2 d c), fun d => h.fin14 (ix1 d), fun d => h.fin15 (ix1 d), fun d => h.fin16 (ix1 d),
      fun d => h.fin17 (ix1 d), fun d => h.fin18 (ix1 d), fun d => h.pos18 (ix1 d)⟩
    ⟨fun d c => h.fin19 (ix2 d c), fun d => h.fin20 (ix1 d), fun d => h.fin21 (ix1 d), fun d => h.fin22 (ix1 d),
      fun d => h.fin23 (ix1 d), fun d => h.fin24 (ix1 d), fun d => h.pos24 (ix1 d)⟩
    (batchOf a0 (i 0)) (fun n c => h.fin0 (ix3 (i 0) n c)) (i 1) (i 2)

/-- The block of equal argument arrays is the same array. -/
theorem result_congr {a0 : (⟨3, ![8, 1024, 512]⟩ : Shape).Idx → EReal} {a1 : (⟨2, ![512, 512]⟩ : Shape).Idx → EReal} {a2 a3 a4 a5 a6 : (⟨1, ![512]⟩ : Shape).Idx → EReal}
    {a7 : (⟨2, ![512, 512]⟩ : Shape).Idx → EReal} {a8 a9 a10 a11 a12 : (⟨1, ![512]⟩ : Shape).Idx → EReal}
    {a13 : (⟨2, ![512, 512]⟩ : Shape).Idx → EReal} {a14 a15 a16 a17 a18 : (⟨1, ![512]⟩ : Shape).Idx → EReal}
    {a19 : (⟨2, ![512, 512]⟩ : Shape).Idx → EReal} {a20 a21 a22 a23 a24 : (⟨1, ![512]⟩ : Shape).Idx → EReal}
    {a0' : (⟨3, ![8, 1024, 512]⟩ : Shape).Idx → EReal} {a1' : (⟨2, ![512, 512]⟩ : Shape).Idx → EReal} {a2' a3' a4' a5' a6' : (⟨1, ![512]⟩ : Shape).Idx → EReal}
    {a7' : (⟨2, ![512, 512]⟩ : Shape).Idx → EReal} {a8' a9' a10' a11' a12' : (⟨1, ![512]⟩ : Shape).Idx → EReal}
    {a13' : (⟨2, ![512, 512]⟩ : Shape).Idx → EReal} {a14' a15' a16' a17' a18' : (⟨1, ![512]⟩ : Shape).Idx → EReal}
    {a19' : (⟨2, ![512, 512]⟩ : Shape).Idx → EReal} {a20' a21' a22' a23' a24' : (⟨1, ![512]⟩ : Shape).Idx → EReal}
    (e0 : a0' = a0) (e1 : a1' = a1) (e2 : a2' = a2) (e3 : a3' = a3) (e4 : a4' = a4) (e5 : a5' = a5) (e6 : a6' = a6) (e7 : a7' = a7) (e8 : a8' = a8) (e9 : a9' = a9) (e10 : a10' = a10) (e11 : a11' = a11) (e12 : a12' = a12) (e13 : a13' = a13) (e14 : a14' = a14) (e15 : a15' = a15) (e16 : a16' = a16) (e17 : a17' = a17) (e18 : a18' = a18) (e19 : a19' = a19) (e20 : a20' = a20) (e21 : a21' = a21) (e22 : a22' = a22) (e23 : a23' = a23) (e24 : a24' = a24) :
    result a0' a1' a2' a3' a4' a5' a6' a7' a8' a9' a10' a11' a12' a13' a14' a15' a16' a17' a18' a19' a20' a21' a22' a23' a24' = result a0 a1 a2 a3 a4 a5 a6 a7 a8 a9 a10 a11 a12 a13 a14 a15 a16 a17 a18 a19 a20 a21 a22 a23 a24 := by
  subst e0 e1 e2 e3 e4 e5 e6 e7 e8 e9 e10 e11 e12 e13 e14 e15 e16 e17 e18 e19 e20 e21 e22 e23 e24
  rfl

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the attention block of the kernel's arguments.  The kernel's run ends at the folded
    arrangement, which is the block on the precondition's domain; the reference's run ends at its own result term,
    which is the block of its arguments, and those agree with the kernel's. -/
theorem algebraic : Cert.algebraic_KernelIdeal_ReferenceIdeal := by
  intro m ρ m' ρ' hpre hagree
  refine ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)), ?_, ?_⟩
  · exact (θ_run (Cert.KernelIdeal.defs (F := Ideal)) _ _).mono
      (fun r h c => ⟨(h c).1.trans (resultF_eq_result _ _ _ _ _ _ _ _ _ _ _ _ _ _ _ _ _ _ _ _ _ _ _ _ _
        (Cert.InputDomain.of_pre _ _ _ _ _ _ _ _ _ _ _ _ _ _ _ _ _ _ _ _ _ _ _ _ _ (hpre c))), (h c).2⟩)
      (Cert.KernelIdeal.BlockValue.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22, e23, e24⟩ := hagree c
    exact (Cert.ReferenceIdeal.Read.val_main_v84_eq m' c).trans
      ((Cert.ReferenceIdeal.RefValue.reference_eq_result _ _ _ _ _ _ _ _ _ _ _ _ _ _ _ _ _ _ _ _ _ _ _ _ _).trans
        (result_congr e0 e1 e2 e3 e4 e5 e6 e7 e8 e9 e10 e11 e12 e13 e14 e15 e16 e17 e18 e19 e20 e21 e22 e23 e24))

/-- The conjunction the certificate asks for, under the generated witnesses of the programs' stated facts. -/
theorem claim_body : Cert.frame_Kernel ∧ Cert.frame_KernelIdeal ∧ Cert.frame_ReferenceIdeal
    ∧ Cert.preserves_Kernel_KernelIdeal ∧ Cert.algebraic_KernelIdeal_ReferenceIdeal :=
  ⟨frame_k, frame_ki, frame_ri, preserves, algebraic⟩

end Cert.Proof.BlockClaims

end
-- ==== Proof.lean ====
/-
  The certificate of the attention block: `Cert.Claim`.

  The kernel and its jnp reference both compute, for each of 8 batch elements, a `1024 × 512` matrix through three
  linear layers with eval-mode batch normalisation and ReLU (queries, keys, values), a softmax-free 8-head attention
  scaled by `1/8`, a ReLU, and a fourth such layer.  The reference normalises after each matrix product and forms the
  `1024 × 1024` scores first; the kernel multiplies the normalisation's scale `g · (1 / √(var + ε))` into the weights and
  the bias beforehand and forms the `64 × 64` keys-times-values products first.  Over the extended reals the two
  arrangements are equal where every argument entry is a real number and every `var + ε` is positive — the
  precondition — by distributivity and an exchange of two finite sums (Proof/Rearrange.lean).  The kernel's result
  array is read off its run block by block (Proof/KernelValue.lean), the reference's off its run stage by stage
  (Proof/ReferenceValue.lean); both are the function `Cert.AttentionBlock.result` of the argument arrays
  (Proof/AttentionBlock.lean), and Proof/Claims.lean assembles the five conjuncts.  The ideal pass rewrote nothing,
  so `preserves` is trivial; the three frame claims are the three runs with the value dropped.
-/
import proofs.«153185_j85633057947962_2_alg».proof.Defs
import proofs.«153185_j85633057947962_2_alg».proof.Proof.Gen.Kernel
import proofs.«153185_j85633057947962_2_alg».proof.Proof.Gen.KernelIdeal
import proofs.«153185_j85633057947962_2_alg».proof.Proof.Gen.ReferenceIdeal
import proofs.«153185_j85633057947962_2_alg».proof.Proof.Gen.Pre_finite_inputs
import proofs.«153185_j85633057947962_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.BlockClaims.claim_body⟩

end Cert.Proof

end
